-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S1 : Shape := ⟨1, ![1]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008 : S_.BroadcastsInDim S11008 (![] : Fin 0 → Fin S11008.rank)
  reducesTo_S11008_S_d0 : S11008.ReducesTo [0] S_
  bcast_S_S1 : S_.BroadcastsInDim S1 (![] : Fin 0 → Fin S1.rank)
  reducesTo_S1_S_d0 : S1.ReducesTo [0] S_

variable [Facts]

def fn {F : FTy → Type} [FloatOps F] (main_arg0 : FVec F S4x2048x4096 .f32) (main_arg1 : IVec S11008x4096 32) (main_arg2 : FVec F S11008 .f32) (main_arg3 : IVec S11008 32) (main_arg4 : IVec S11008 32) (main_arg5 : FVec F S1 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S1 .f32 := Host.absf main_arg5
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S4x2048x4096 : Shape := ⟨3, ![4, 2048, 4096]⟩
abbrev S11008x4096 : Shape := ⟨2, ![11008, 4096]⟩
abbrev S11008 : Shape := ⟨1, ![11008]⟩
abbrev S1 : Shape := ⟨1, ![1]⟩
abbrev S8192x4096 : Shape := ⟨2, ![8192, 4096]⟩
abbrev S11008x1 : Shape := ⟨2, ![11008, 1]⟩
abbrev S1x11008 : Shape := ⟨2, ![1, 11008]⟩
abbrev S1x1 : Shape := ⟨2, ![1, 1]⟩
abbrev S8192x11008 : Shape := ⟨2, ![8192, 11008]⟩
abbrev S1024x512 : Shape := ⟨2, ![1024, 512]⟩
abbrev S1024x1 : Shape := ⟨2, ![1024, 1]⟩
abbrev S1x1024 : Shape := ⟨2, ![1, 1024]⟩
abbrev S1024x1024 : Shape := ⟨2, ![1024, 1024]⟩
abbrev S4x2048x11008 : Shape := ⟨3, ![4, 2048, 11008]⟩

abbrev nBuf : Space → Nat
  | .hbm => 13
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S11008, .i32⟩
  | .hbm, ⟨4, _⟩ => ⟨S11008, .i32⟩
  | .hbm, ⟨5, _⟩ => ⟨S1, .f32⟩
  | .hbm, ⟨6, _⟩ => ⟨S8192x4096, .f32⟩
  | .hbm, ⟨7, _⟩ => ⟨S11008x1, .f32⟩
  | .hbm, ⟨8, _⟩ => ⟨S11008x1, .i32⟩
  | .hbm, ⟨9, _⟩ => ⟨S1x11008, .i32⟩
  | .hbm, ⟨10, _⟩ => ⟨S1x1, .f32⟩
  | .hbm, ⟨11, _⟩ => ⟨S8192x11008, .f32⟩
  | .hbm, ⟨12, _⟩ => ⟨S4x2048x11008, .f32⟩
  | .local _ .vmem, ⟨0, _⟩ => ⟨S1024x512, .f32⟩
  | .local _ .vmem, ⟨1, _⟩ => ⟨S1024x512, .f32⟩
  | .local _ .vmem, ⟨2, _⟩ => ⟨S1024x512, .i32⟩
  | .local _ .vmem, ⟨3, _⟩ => ⟨S1024x512, .i32⟩
  | .local _ .vmem, ⟨4, _⟩ => ⟨S1024x1, .f32⟩
  | .local _ .vmem, ⟨5, _⟩ => ⟨S1024x1, .f32⟩
  | .local _ .vmem, ⟨6, _⟩ => ⟨S1024x1, .i32⟩
  | .local _ .vmem, ⟨7, _⟩ => ⟨S1024x1, .i32⟩
  | .local _ .vmem, ⟨8, _⟩ => ⟨S1x1024, .i32⟩
  | .local _ .vmem, ⟨9, _⟩ => ⟨S1x1024, .i32⟩
  | .local _ .vmem, ⟨10, _⟩ => ⟨S1x1, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![8, 11, 8], ![false, false, false]⟩

def k0_cond2 (i : grid0.Coords) : BitVec 1 :=
  let arg2 : BitVec 32 := BitVec.ofNat 32 (i 2).val
  let c7_i32 : BitVec 32 := 7#32
  let v24 : BitVec 1 := Scalar.cmpi .eq arg2 c7_i32
  let v25 : BitVec 32 := Scalar.extui v24
  let c0_i32_12 : BitVec 32 := 0#32
  let v26 : BitVec 1 := Scalar.cmpi .ne v25 c0_i32_12
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  shapeCasts_S4x2048x4096_S8192x4096 : S4x2048x4096.ShapeCasts S8192x4096
  shapeCasts_S11008_S11008x1 : S11008.ShapeCasts S11008x1
  shapeCasts_S11008_S1x11008 : S11008.ShapeCasts S1x11008
  shapeCasts_S1_S1x1 : S1.ShapeCasts S1x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x11008_S4x2048x11008 : S8192x11008.ShapeCasts S4x2048x11008
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x512.size a < S11008x4096.size a
  hwx0_1 : ∀ i : grid0.Coords, EltTy.bits .i32 = 32 ∨ (Rect.unit (s := S11008x4096) (fun a => cc0_transform_1 i a * S1024x512.size a) (fun a => (Pipeline.Clip.of (cc0_transform_1 i a) (S1024x512.size a) (S11008x4096.size a)).extent (S1024x512.size a)) fun a => Pipeline.Clip.inb (Pipeline.Clip.ok_of (hstart0_1 i a))).WholeWords (EltTy.packing .i32)
  hwxs0_1 : ∀ i : grid0.Coords, EltTy.bits .i32 = 32 ∨ (Rect.unit (s := S1024x512) (fun _ => 0) (fun a => (Pipeline.Clip.of (cc0_transform_1 i a) (S1024x512.size a) (S11008x4096.size a)).extent (S1024x512.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x1.size a < S11008x1.size a
  hwx0_2 : ∀ i : grid0.Coords, EltTy.bits .f32 = 32 ∨ (Rect.unit (s := S11008x1) (fun a => cc0_transform_2 i a * S1024x1.size a) (fun a => (Pipeline.Clip.of (cc0_transform_2 i a) (S1024x1.size a) (S11008x1.size a)).extent (S1024x1.size a)) fun a => Pipeline.Clip.inb (Pipeline.Clip.ok_of (hstart0_2 i a))).WholeWords (EltTy.packing .f32)
  hwxs0_2 : ∀ i : grid0.Coords, EltTy.bits .f32 = 32 ∨ (Rect.unit (s := S1024x1) (fun _ => 0) (fun a => (Pipeline.Clip.of (cc0_transform_2 i a) (S1024x1.size a) (S11008x1.size a)).extent (S1024x1.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x1.size a < S11008x1.size a
  hwx0_3 : ∀ i : grid0.Coords, EltTy.bits .i32 = 32 ∨ (Rect.unit (s := S11008x1) (fun a => cc0_transform_3 i a * S1024x1.size a) (fun a => (Pipeline.Clip.of (cc0_transform_3 i a) (S1024x1.size a) (S11008x1.size a)).extent (S1024x1.size a)) fun a => Pipeline.Clip.inb (Pipeline.Clip.ok_of (hstart0_3 i a))).WholeWords (EltTy.packing .i32)
  hwxs0_3 : ∀ i : grid0.Coords, EltTy.bits .i32 = 32 ∨ (Rect.unit (s := S1024x1) (fun _ => 0) (fun a => (Pipeline.Clip.of (cc0_transform_3 i a) (S1024x1.size a) (S11008x1.size a)).extent (S1024x1.size a)) fun a => (Nat.zero_add _).trans_le (Pipeline.Clip.extent_le (Pipeline.Clip.ok_of (hstart0_3 i a)))).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x1024.size a < S1x11008.size a
  hwx0_4 : ∀ i : grid0.Coords, EltTy.bits .i32 = 32 ∨ (Rect.unit (s := S1x11008) (fun a => cc0_transform_4 i a * S1x1024.size a) (fun a => (Pipeline.Clip.of (cc0_transform_4 i a) (S1x1024.size a) (S1x11008.size a)).extent (S1x1024.size a)) fun a => Pipeline.Clip.inb (Pipeline.Clip.ok_of (hstart0_4 i a))).WholeWords (EltTy.packing .i32)
  hwxs0_4 : ∀ i : grid0.Coords, EltTy.bits .i32 = 32 ∨ (Rect.unit (s := S1x1024) (fun _ => 0) (fun a => (Pipeline.Clip.of (cc0_transform_4 i a) (S1x1024.size a) (S1x11008.size a)).extent (S1x1024.size a)) fun a => (Nat.zero_add _).trans_le (Pipeline.Clip.extent_le (Pipeline.Clip.ok_of (hstart0_4 i a)))).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S1024x1024.size a < S8192x11008.size a
  hwx0_6 : ∀ i : grid0.Coords, EltTy.bits .f32 = 32 ∨ (Rect.unit (s := S8192x11008) (fun a => cc0_transform_6 i a * S1024x1024.size a) (fun a => (Pipeline.Clip.of (cc0_transform_6 i a) (S1024x1024.size a) (S8192x11008.size a)).extent (S1024x1024.size a)) fun a => Pipeline.Clip.inb (Pipeline.Clip.ok_of (hstart0_6 i a))).WholeWords (EltTy.packing .f32)
  hwxs0_6 : ∀ i : grid0.Coords, EltTy.bits .f32 = 32 ∨ (Rect.unit (s := S1024x1024) (fun _ => 0) (fun a => (Pipeline.Clip.of (cc0_transform_6 i a) (S1024x1024.size a) (S8192x11008.size a)).extent (S1024x1024.size a)) fun a => (Nat.zero_add _).trans_le (Pipeline.Clip.extent_le (Pipeline.Clip.ok_of (hstart0_6 i a)))).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1024x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v1) S1024x1.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v2) S1024x1.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v3) S1x1024.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpec (Memref.whole main_v4) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpecClip (Memref.whole main_v5) S1024x1024.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S1 : Shape := ⟨1, ![1]⟩
abbrev S11008x1 : Shape := ⟨2, ![11008, 1]⟩
abbrev S4x2048x11008 : Shape := ⟨3, ![4, 2048, 11008]⟩
abbrev S1x1x11008 : Shape := ⟨3, ![1, 1, 11008]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S11008, .i32⟩
  | .hbm, ⟨4, _⟩ => ⟨S11008, .i32⟩
  | .hbm, ⟨5, _⟩ => ⟨S1, .f32⟩
  | .hbm, ⟨6, _⟩ => ⟨S11008x1, .f32⟩
  | .hbm, ⟨7, _⟩ => ⟨S11008x4096, .f32⟩
  | .hbm, ⟨8, _⟩ => ⟨S11008, .f32⟩
  | .hbm, ⟨9, _⟩ => ⟨S11008x1, .f32⟩
  | .hbm, ⟨10, _⟩ => ⟨S11008x4096, .f32⟩
  | .hbm, ⟨11, _⟩ => ⟨S11008x4096, .f32⟩
  | .hbm, ⟨12, _⟩ => ⟨S11008x4096, .f32⟩
  | .hbm, ⟨13, _⟩ => ⟨S11008x4096, .f32⟩
  | .hbm, ⟨14, _⟩ => ⟨S4x2048x11008, .f32⟩
  | .hbm, ⟨15, _⟩ => ⟨S11008, .f32⟩
  | .hbm, ⟨16, _⟩ => ⟨S11008, .f32⟩
  | .hbm, ⟨17, _⟩ => ⟨S11008, .f32⟩
  | .hbm, ⟨18, _⟩ => ⟨S1x1x11008, .f32⟩
  | .hbm, ⟨19, _⟩ => ⟨S4x2048x11008, .f32⟩
  | .hbm, ⟨20, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S1_S11008_0 : S1.BroadcastsInDim S11008 (![0] : Fin 1 → Fin S11008.rank)
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.KBodyRun.lean ====
/-
  The kernel body's Hoare triples, one per control case of its two conditionals.

  The grid is (i, j, k) = (8, 11, 8) with k innermost. At k = 0 the body first stores zeros into the
  accumulator; at every k it adds the product of the x block and the dequantized weight block into the
  accumulator; at k = 7 it stores accumulator + bias into the output block. So three cases occur: k = 0
  (reset, accumulate), 0 < k < 7 (accumulate), k = 7 (accumulate, write out). Each triple says: on whole
  staging buffers holding given contents the body terminates without a fault, hands the six input buffers back
  as they were, and leaves in the accumulator (and, at k = 7, in the output buffer) its contents overwritten by
  the listed stores. The triples hold at every float instance.
-/
import proofs.«153634_j74594991997150_1_alg».proof.Proof.Gen.Kernel.Launch
import proofs.«153634_j74594991997150_1_alg».proof.Proof.Gen.Kernel.Skeleton
import proofs.«153634_j74594991997150_1_alg».proof.Proof.Gen.Kernel.Points
import proofs.«153634_j74594991997150_1_alg».proof.Proof.Gen.Kernel.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- The first conditional's condition: the grid's last coordinate k is 0. -/
abbrev condFirst (i : grid0.Coords) : Prop :=
  (Scalar.cmpi .ne (Scalar.extui (Scalar.cmpi .eq (BitVec.ofNat 32 (i 2).val) 0#32)) 0#32) = 1#1
/-- With k innermost of extent 8, k = 0 exactly at the points ≡ 0 (mod 8). -/
theorem hcondFirst : ∀ t : Fin cfg0.N, condFirst (grid0.coords t) ↔ t.val % 8 = 0 :=
  (by decide +kernel : ∀ t : Fin grid0.N, condFirst (grid0.coords t) ↔ t.val % 8 = 0)

/-- The second conditional's condition: k is 7, the last step of the contraction. -/
abbrev condLast (i : grid0.Coords) : Prop := k0_cond2 i = 1#1
/-- k = 7 exactly at the points ≡ 7 (mod 8). -/
theorem hcondLast : ∀ t : Fin cfg0.N, condLast (grid0.coords t) ↔ t.val % 8 = 7 :=
  (by decide +kernel : ∀ t : Fin grid0.N, condLast (grid0.coords t) ↔ t.val % 8 = 7)

/-! ## The body in each case -/

set_option maxHeartbeats 2000000 in
/-- k = 0: the accumulator, whatever it held, is overwritten by zeros and then by zeros + product; the output
    buffer is not touched. The stores into the accumulator are the list the run finds. -/
noncomputable def runFirst (c : Dev nD) (i : grid0.Coords) (a3 : Memref sig .tc .vmem S1024x512 .f32) (h3 : a3.IsWhole) (a4 : Memref sig .tc .vmem S1024x512 .i32) (h4 : a4.IsWhole) (a5 : Memref sig .tc .vmem S1024x1 .f32) (h5 : a5.IsWhole) (a6 : Memref sig .tc .vmem S1024x1 .i32) (h6 : a6.IsWhole) (a7 : Memref sig .tc .vmem S1x1024 .i32) (h7 : a7.IsWhole) (a8 : Memref sig .tc .vmem S1x1 .f32) (h8 : a8.IsWhole) (a9 : Memref sig .tc .vmem S1024x1024 .f32) (h9 : a9.IsWhole) (a10 : Memref sig .tc .vmem S1024x1024 .f32) (h10 : a10.IsWhole) (hc1 : condFirst i) (hc2 : ¬condLast i)
    (x0 : Vec F S1024x512 .f32) (x1 : Vec F S1024x512 .i32) (x2 : Vec F S1024x1 .f32) (x3 : Vec F S1024x1 .i32) (x4 : Vec F S1x1024 .i32) (x5 : Vec F S1x1 .f32) :
    { LS : List (View.Piece (Elt F) S1024x1024 .f32) //
      ∀ (xo : Vec F S1024x1024 .f32) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ owns (c : Thread nD τ) a9 fullShare xo ∗ (∃ d, owns (c : Thread nD τ) a10 fullShare d)
            ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ owns (c : Thread nD τ) a9 fullShare xo ∗ (∃ f, a10.view.loc (c : Thread nD τ) ↦[a10.view.set]{fullShare} a10.view.writes (Elt F) f LS)) -∗ K ⟨⟩))
          ⊢ wp frame (wpE (defs₀ (F := F)) Variants.none c none) E (cc0__qlinear_kernel i a3 h3 a4 h4 a5 h5 a6 h6 a7 h7 a8 h8 a9 h9 a10 h10) K } := by
  refine ⟨?_, fun xo E K => ?run⟩
  case run =>
    simp only [cc0__qlinear_kernel_eq_skeleton]; unfold cc0__qlinear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := h3.eq_unread hf0; obtain rfl := h4.eq_unread hf1; obtain rfl := h5.eq_unread hf2
    obtain rfl := h6.eq_unread hf3; obtain rfl := h7.eq_unread hf4; obtain rfl := h8.eq_unread hf5
    obtain rfl := h9.eq_unread hf6
    sl_exec (disch := first | exact hc1 | exact hc2)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    isplitl [H5]
    · iexists _; isplitr; · ipureintro; exact h8.read_unread _
      iexact H5
    isplitl [H6]
    · iexists _; isplitr; · ipureintro; exact h9.read_unread _
      iexact H6
    iexists _; iexact HS

set_option maxHeartbeats 2000000 in
/-- 0 < k < 7: the accumulator, holding xs, is overwritten by xs + product; the output buffer is not touched. -/
noncomputable def runMid (c : Dev nD) (i : grid0.Coords) (a3 : Memref sig .tc .vmem S1024x512 .f32) (h3 : a3.IsWhole) (a4 : Memref sig .tc .vmem S1024x512 .i32) (h4 : a4.IsWhole) (a5 : Memref sig .tc .vmem S1024x1 .f32) (h5 : a5.IsWhole) (a6 : Memref sig .tc .vmem S1024x1 .i32) (h6 : a6.IsWhole) (a7 : Memref sig .tc .vmem S1x1024 .i32) (h7 : a7.IsWhole) (a8 : Memref sig .tc .vmem S1x1 .f32) (h8 : a8.IsWhole) (a9 : Memref sig .tc .vmem S1024x1024 .f32) (h9 : a9.IsWhole) (a10 : Memref sig .tc .vmem S1024x1024 .f32) (h10 : a10.IsWhole) (hc1 : ¬condFirst i) (hc2 : ¬condLast i)
    (x0 : Vec F S1024x512 .f32) (x1 : Vec F S1024x512 .i32) (x2 : Vec F S1024x1 .f32) (x3 : Vec F S1024x1 .i32) (x4 : Vec F S1x1024 .i32) (x5 : Vec F S1x1 .f32) (xs : Vec F S1024x1024 .f32) :
    { LS : List (View.Piece (Elt F) S1024x1024 .f32) //
      ∀ (xo : Vec F S1024x1024 .f32) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ owns (c : Thread nD τ) a9 fullShare xo ∗ owns (c : Thread nD τ) a10 fullShare xs
            ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ owns (c : Thread nD τ) a9 fullShare xo ∗ (∃ f, a10.view.loc (c : Thread nD τ) ↦[a10.view.set]{fullShare} a10.view.writes (Elt F) f LS)) -∗ K ⟨⟩))
          ⊢ wp frame (wpE (defs₀ (F := F)) Variants.none c none) E (cc0__qlinear_kernel i a3 h3 a4 h4 a5 h5 a6 h6 a7 h7 a8 h8 a9 h9 a10 h10) K } := by
  refine ⟨?_, fun xo E K => ?run⟩
  case run =>
    simp only [cc0__qlinear_kernel_eq_skeleton]; unfold cc0__qlinear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := h3.eq_unread hf0; obtain rfl := h4.eq_unread hf1; obtain rfl := h5.eq_unread hf2
    obtain rfl := h6.eq_unread hf3; obtain rfl := h7.eq_unread hf4; obtain rfl := h8.eq_unread hf5
    obtain rfl := h9.eq_unread hf6; obtain rfl := h10.eq_unread hfs
    sl_exec (disch := first | exact hc1 | exact hc2)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    isplitl [H5]
    · iexists _; isplitr; · ipureintro; exact h8.read_unread _
      iexact H5
    isplitl [H6]
    · iexists _; isplitr; · ipureintro; exact h9.read_unread _
      iexact H6
    iexists _; iexact HS

set_option maxHeartbeats 2000000 in
/-- k = 7: the accumulator, holding xs, is overwritten by xs + product, and the output buffer, whatever it held,
    by that + bias. -/
noncomputable def runLast (c : Dev nD) (i : grid0.Coords) (a3 : Memref sig .tc .vmem S1024x512 .f32) (h3 : a3.IsWhole) (a4 : Memref sig .tc .vmem S1024x512 .i32) (h4 : a4.IsWhole) (a5 : Memref sig .tc .vmem S1024x1 .f32) (h5 : a5.IsWhole) (a6 : Memref sig .tc .vmem S1024x1 .i32) (h6 : a6.IsWhole) (a7 : Memref sig .tc .vmem S1x1024 .i32) (h7 : a7.IsWhole) (a8 : Memref sig .tc .vmem S1x1 .f32) (h8 : a8.IsWhole) (a9 : Memref sig .tc .vmem S1024x1024 .f32) (h9 : a9.IsWhole) (a10 : Memref sig .tc .vmem S1024x1024 .f32) (h10 : a10.IsWhole) (hc1 : ¬condFirst i) (hc2 : condLast i)
    (x0 : Vec F S1024x512 .f32) (x1 : Vec F S1024x512 .i32) (x2 : Vec F S1024x1 .f32) (x3 : Vec F S1024x1 .i32) (x4 : Vec F S1x1024 .i32) (x5 : Vec F S1x1 .f32) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ (∃ d, owns (c : Thread nD τ) a9 fullShare d) ∗ owns (c : Thread nD τ) a10 fullShare xs
            ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ (∃ f, a9.view.loc (c : Thread nD τ) ↦[a9.view.set]{fullShare} a9.view.writes (Elt F) f LO) ∗ (∃ f, a10.view.loc (c : Thread nD τ) ↦[a10.view.set]{fullShare} a10.view.writes (Elt F) f LS)) -∗ K ⟨⟩))
          ⊢ wp frame (wpE (defs₀ (F := F)) Variants.none c none) E (cc0__qlinear_kernel i a3 h3 a4 h4 a5 h5 a6 h6 a7 h7 a8 h8 a9 h9 a10 h10) K } := by
  refine ⟨?_, ?_, fun E K => ?run⟩
  case run =>
    simp only [cc0__qlinear_kernel_eq_skeleton]; unfold cc0__qlinear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := h3.eq_unread hf0; obtain rfl := h4.eq_unread hf1; obtain rfl := h5.eq_unread hf2
    obtain rfl := h6.eq_unread hf3; obtain rfl := h7.eq_unread hf4; obtain rfl := h8.eq_unread hf5
    obtain rfl := h10.eq_unread hfs
    sl_exec (disch := first | exact hc1 | exact hc2)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    isplitl [H5]
    · iexists _; isplitr; · ipureintro; exact h8.read_unread _
      iexact H5
    isplitl [H6]; · iexists _; iexact H6
    iexists _; iexact HS

end Cert.Kernel.Hand

end
-- ==== Proof.KFrame.lean ====
/-
  The frame of the word-level kernel program: it terminates, faults nowhere, and leaves its six argument
  arrays as it found them.

  The program is a tiled matrix product with a dequantized weight: five host reshapes, one pipelined region
  over the grid (i, j, k) = (8, 11, 8) with k innermost, one host reshape of the result. The region stages
  six input windows and one output window through buffers in fast memory and keeps an accumulator of its own
  between grid points.

  A frame says which arrays are unchanged; it says nothing of values. The pipeline only ever copies INTO the
  staging buffers of an input window and only ever copies the output window's buffer OUT to the output array,
  which is none of the six arguments. So nothing of what any staging buffer or the accumulator holds needs a
  name: every window is handed to the body at arbitrary contents and taken back at arbitrary contents, and the
  accumulator stays inside the region's invariant at arbitrary contents. What remains to show of the body is
  that it runs without fault on whole buffers and hands all of them back, which the three triples of the body
  give, one per control case of its two conditionals:
    k = 0      the accumulator (at anything) is reset, then accumulated into; the output buffer is untouched;
    0 < k < 7  the accumulator is accumulated into; the output buffer is untouched;
    k = 7      the accumulator is accumulated into, and the output buffer (at anything) is overwritten.
  k = 0 and k = 7 are the points ≡ 0 and ≡ 7 (mod 8), so no point is in two cases.

  Around the region: the host lines before it write none of the six arguments (so the region finds them as
  launched), the region writes only the output window's array, and the one host line after it writes only its
  own result; an input window's array is never written back, and an array no window stages bypasses the region.
-/
import proofs.«153634_j74594991997150_1_alg».proof.Proof.KBodyRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data: every window forgotten -/

/-- Every window is forgotten: the frame reads nothing of what a staging buffer holds. -/
def forgetsAll : Fin 7 → Bool := fun _ => true

/-- The proof data on core c: the arrays as the region finds them; after the body every window's buffer at
    contents nothing names; the invariant the accumulator at some contents and the generator register at some
    state; full shares; nothing owed. -/
def fdats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- The accumulator as a memref: a whole buffer of the region's own. -/
abbrev accM : Memref sig .tc .vmem S1024x1024 .f32 := Memref.whole cc0_scratch0

/-- The invariant opened: the accumulator owned at some contents, and the generator register at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-! ## The body at a generic point -/

/-- Each window's current staging memref at point t, and its wholeness. -/
abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1024 .f32 := win0_6.stage (cfg0.slots t 6)
abbrev hs6 (t : Fin cfg0.N) : (ms6 t).IsWhole := hstage0_6 ((cfg0.slots t 6).cast nbuf0_6)

/-- What the body is called with at point t: the invariant, what the core owes, and each window's current
    buffer at some contents. -/
def bodyPre (c : Dev nD) (t : Fin cfg0.N) : sProp 𝕄 :=
  iprop((fdats m 0 c).Φ t.castSucc ∗ (fdats m 0 c).owesAt () t.castSucc
    ∗ (∃ X, owns (c : Thread nD τ) (ms0 t) fullShare X)
    ∗ (∃ X, owns (c : Thread nD τ) (ms1 t) fullShare X)
    ∗ (∃ X, owns (c : Thread nD τ) (ms2 t) fullShare X)
    ∗ (∃ X, owns (c : Thread nD τ) (ms3 t) fullShare X)
    ∗ (∃ X, owns (c : Thread nD τ) (ms4 t) fullShare X)
    ∗ (∃ X, owns (c : Thread nD τ) (ms5 t) fullShare X)
    ∗ (∃ X, owns (c : Thread nD τ) (ms6 t) fullShare X))

/-- And what it returns: the same, each buffer again at some contents. -/
def bodyPost (c : Dev nD) (t : Fin cfg0.N) : sProp 𝕄 :=
  iprop((fdats m 0 c).Φ t.succ ∗ (fdats m 0 c).owesAt () t.succ
    ∗ (∃ X, owns (c : Thread nD τ) (ms0 t) fullShare X)
    ∗ (∃ X, owns (c : Thread nD τ) (ms1 t) fullShare X)
    ∗ (∃ X, owns (c : Thread nD τ) (ms2 t) fullShare X)
    ∗ (∃ X, owns (c : Thread nD τ) (ms3 t) fullShare X)
    ∗ (∃ X, owns (c : Thread nD τ) (ms4 t) fullShare X)
    ∗ (∃ X, owns (c : Thread nD τ) (ms5 t) fullShare X)
    ∗ (∃ X, owns (c : Thread nD τ) (ms6 t) fullShare X))

set_option maxHeartbeats 4000000 in
/-- The body at any point. The point is in exactly one of the three cases (k = 0, 0 < k < 7, k = 7: the residues
    0, 1..6, 7 of the point's position mod 8); the case's triple runs on the buffers at whatever they hold; a
    buffer the body stored into comes back at its old contents overwritten by the stores, which is again some
    contents. The invariant lends the accumulator and takes it back; the generator register and what the core
    owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (fdats m 0 c).owesAt () t.succ = (fdats m 0 c).owesAt () t.castSucc from rfl,
    show (fdats m 0 c).Φ t.succ = Pipeline.ΦA spec0 c from rfl,
    show (fdats m 0 c).Φ t.castSucc = Pipeline.ΦA spec0 c from rfl, PhiA_eq]
  by_cases h0 : t.val % 8 = 0
  · by_cases h7 : t.val % 8 = 7
    · exfalso; omega
    · iintro ⟨⟨HS, Hg⟩, Ho, ⟨%x0, H0⟩, ⟨%x1, H1⟩, ⟨%x2, H2⟩, ⟨%x3, H3⟩, ⟨%x4, H4⟩, ⟨%x5, H5⟩, ⟨%xo, H6⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _)
        ((hcondFirst t).mpr h0) (fun h => h7 ((hcondLast t).mp h)) x0 x1 x2 x3 x4 x5).property xo Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%fs, HS⟩⟩
      isplitl [HS Hg]
      · isplitl [HS]
        · unfold owns; iexists _, _; isplitr
          swap; · iexact HS
          ipureintro; rfl
        iexact Hg
      isplitl [Ho]; · iexact Ho
      isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      iexists _; iexact H6
  · by_cases h7 : t.val % 8 = 7
    · iintro ⟨⟨⟨%xs, HS⟩, Hg⟩, Ho, ⟨%x0, H0⟩, ⟨%x1, H1⟩, ⟨%x2, H2⟩, ⟨%x3, H3⟩, ⟨%x4, H4⟩, ⟨%x5, H5⟩, H6⟩
      iapply ((runLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _)
        (fun h => h0 ((hcondFirst t).mp h)) ((hcondLast t).mpr h7) x0 x1 x2 x3 x4 x5 xs).2.property Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, ⟨%fo, H6⟩, ⟨%fs, HS⟩⟩
      isplitl [HS Hg]
      · isplitl [HS]
        · unfold owns; iexists _, _; isplitr
          swap; · iexact HS
          ipureintro; rfl
        iexact Hg
      isplitl [Ho]; · iexact Ho
      isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      unfold owns; iexists _, _; isplitr
      swap; · iexact H6
      ipureintro; rfl
    · iintro ⟨⟨⟨%xs, HS⟩, Hg⟩, Ho, ⟨%x0, H0⟩, ⟨%x1, H1⟩, ⟨%x2, H2⟩, ⟨%x3, H3⟩, ⟨%x4, H4⟩, ⟨%x5, H5⟩, ⟨%xo, H6⟩⟩
      iapply ((runMid c (grid0.coords t) (ms0 t) (hs0 t) (ms1 t) (hs1 t) (ms2 t) (hs2 t) (ms3 t) (hs3 t) (ms4 t) (hs4 t) (ms5 t) (hs5 t) (ms6 t) (hs6 t) accM (Memref.isWhole_whole _)
        (fun h => h0 ((hcondFirst t).mp h)) (fun h => h7 ((hcondLast t).mp h)) x0 x1 x2 x3 x4 x5 xs).property xo Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%fs, HS⟩⟩
      isplitl [HS Hg]
      · isplitl [HS]
        · unfold owns; iexists _, _; isplitr
          swap; · iexact HS
          ipureintro; rfl
        iexact Hg
      isplitl [Ho]; · iexact Ho
      isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      iexists _; iexact H6

/-- The library's body obligation with every window forgotten, at every point. -/
theorem body_obligation (c : Dev nD) :
    BodyObligation (fdats (F := F) m 0 c) (defs₀ (F := F)) Variants.none () Set.univ forgetsAll := fun t => by
  rw [bigSep_W0, bigSep_W0]
  exact sound_body m c t

/-! ## The run and the frame -/

/-- The one host line after the region writes only its own result. -/
theorem sfx_T : ∀ ops ∈ ([hostOps1] : List (List (HloOp τ sig (Elt F)))), ∀ op ∈ ops, ∀ b : Ref sig .tc,
    Proc.devRef .tc b ∈ op.writes → b ∈ ({main_v6} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb ⊢
  exact Proc.devRef_injective _ hb

set_option backward.isDefEq.respectTransparency.types false in
/-- From any memory with zero counters, every weakly fair execution of the program on the cores terminates, and
    in every final state each window's array holds contents it may hold after the write-backs (an input's: its
    contents at the region's entry) and every other unscoped buffer but the last host line's result holds what it
    held at the region's entry. -/
theorem run_main : θ_run defs (onTc (τ := τ) (main (F := F))) (s₀ m ρ)
    (Pipeline.RDat.FramePostR (cfgs 0) (fun c => (fdats m 0 c).toRForget forgetsAll) {main_v6} (fun c b => V0 m c (Proc.devRef .tc b))) :=
  Pipeline.RDat.θ_run_frame_around_T cfgs (0 : Fin 1) launch0 defs₀ Variants.none (fun c => (fdats m 0 c).toRForget forgetsAll) {main_v6} m ρ main
    (hbody := fun c => (body_obligation m c).toRForget) (hshare := fun c => ((fdats m 0 c).toRForget forgetsAll).share_full fun _ => rfl)
    (howed := fun _ _ => rfl) (V₀ := V0 m) (opss := [hostOps1]) (hsub := sfx_sub) (hfresh := sfx_fresh) (hkeep := sfx_keeps) (hT := sfx_T)
    (hmain := hmain m Variants.none) (hA := fun _ _ => rfl) (hΦ := fun _ _ => rfl)

/-- The frame: the program terminates, faults nowhere, and leaves its six argument arrays as launched. The second
    argument is an input window's array: never written back, it ends at its contents at the region's entry. The
    other five are staged by no window and are not the last host line's result: they bypass the region. And no host
    line before the region writes any of the six. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Finset.mem_sdiff.mpr ⟨Pipeline.mem_restRefs_of main_arg0 (by decide) (by decide), by decide⟩)).trans (V_main_arg0 m c),
      (Eq.mp (congrFun (((fdats m 0 c).toRForget forgetsAll).ArrAt_in 1 rfl _) _) ((h c).1 1)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c)⟩)
    (run_main m ρ)

end Cert.Kernel.Hand

end
-- ==== Proof.BodyRun.lean ====
/-
  The kernel body's Hoare triples, one per control case of its two conditionals.

  The grid is (i, j, k) = (8, 11, 8) with k innermost. At k = 0 the body first stores zeros into the
  accumulator; at every k it adds the product of the x block and the dequantized weight block into the
  accumulator; at k = 7 it stores accumulator + bias into the output block. So three cases occur: k = 0
  (reset, accumulate), 0 < k < 7 (accumulate), k = 7 (accumulate, write out). Each triple says: on whole
  staging buffers holding given contents the body terminates without a fault, hands the six input buffers back
  as they were, and leaves in the accumulator (and, at k = 7, in the output buffer) its contents overwritten by
  the listed stores. The triples hold at every float instance.
-/
import proofs.«153634_j74594991997150_1_alg».proof.Proof.Gen.KernelIdeal.Launch
import proofs.«153634_j74594991997150_1_alg».proof.Proof.Gen.KernelIdeal.Skeleton
import proofs.«153634_j74594991997150_1_alg».proof.Proof.Gen.KernelIdeal.Points
import proofs.«153634_j74594991997150_1_alg».proof.Proof.Gen.KernelIdeal.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- The first conditional's condition: the grid's last coordinate k is 0. -/
abbrev condFirst (i : grid0.Coords) : Prop :=
  (Scalar.cmpi .ne (Scalar.extui (Scalar.cmpi .eq (BitVec.ofNat 32 (i 2).val) 0#32)) 0#32) = 1#1
/-- With k innermost of extent 8, k = 0 exactly at the points ≡ 0 (mod 8). -/
theorem hcondFirst : ∀ t : Fin cfg0.N, condFirst (grid0.coords t) ↔ t.val % 8 = 0 :=
  (by decide +kernel : ∀ t : Fin grid0.N, condFirst (grid0.coords t) ↔ t.val % 8 = 0)

/-- The second conditional's condition: k is 7, the last step of the contraction. -/
abbrev condLast (i : grid0.Coords) : Prop := k0_cond2 i = 1#1
/-- k = 7 exactly at the points ≡ 7 (mod 8). -/
theorem hcondLast : ∀ t : Fin cfg0.N, condLast (grid0.coords t) ↔ t.val % 8 = 7 :=
  (by decide +kernel : ∀ t : Fin grid0.N, condLast (grid0.coords t) ↔ t.val % 8 = 7)

/-! ## The body in each case -/

set_option maxHeartbeats 2000000 in
/-- k = 0: the accumulator, whatever it held, is overwritten by zeros and then by zeros + product; the output
    buffer is not touched. The stores into the accumulator are the list the run finds. -/
noncomputable def runFirst (c : Dev nD) (i : grid0.Coords) (a3 : Memref sig .tc .vmem S1024x512 .f32) (h3 : a3.IsWhole) (a4 : Memref sig .tc .vmem S1024x512 .i32) (h4 : a4.IsWhole) (a5 : Memref sig .tc .vmem S1024x1 .f32) (h5 : a5.IsWhole) (a6 : Memref sig .tc .vmem S1024x1 .i32) (h6 : a6.IsWhole) (a7 : Memref sig .tc .vmem S1x1024 .i32) (h7 : a7.IsWhole) (a8 : Memref sig .tc .vmem S1x1 .f32) (h8 : a8.IsWhole) (a9 : Memref sig .tc .vmem S1024x1024 .f32) (h9 : a9.IsWhole) (a10 : Memref sig .tc .vmem S1024x1024 .f32) (h10 : a10.IsWhole) (hc1 : condFirst i) (hc2 : ¬condLast i)
    (x0 : Vec F S1024x512 .f32) (x1 : Vec F S1024x512 .i32) (x2 : Vec F S1024x1 .f32) (x3 : Vec F S1024x1 .i32) (x4 : Vec F S1x1024 .i32) (x5 : Vec F S1x1 .f32) :
    { LS : List (View.Piece (Elt F) S1024x1024 .f32) //
      ∀ (xo : Vec F S1024x1024 .f32) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ owns (c : Thread nD τ) a9 fullShare xo ∗ (∃ d, owns (c : Thread nD τ) a10 fullShare d)
            ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ owns (c : Thread nD τ) a9 fullShare xo ∗ (∃ f, a10.view.loc (c : Thread nD τ) ↦[a10.view.set]{fullShare} a10.view.writes (Elt F) f LS)) -∗ K ⟨⟩))
          ⊢ wp frame (wpE (defs₀ (F := F)) Variants.none c none) E (cc0__qlinear_kernel i a3 h3 a4 h4 a5 h5 a6 h6 a7 h7 a8 h8 a9 h9 a10 h10) K } := by
  refine ⟨?_, fun xo E K => ?run⟩
  case run =>
    simp only [cc0__qlinear_kernel_eq_skeleton]; unfold cc0__qlinear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := h3.eq_unread hf0; obtain rfl := h4.eq_unread hf1; obtain rfl := h5.eq_unread hf2
    obtain rfl := h6.eq_unread hf3; obtain rfl := h7.eq_unread hf4; obtain rfl := h8.eq_unread hf5
    obtain rfl := h9.eq_unread hf6
    sl_exec (disch := first | exact hc1 | exact hc2)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    isplitl [H5]
    · iexists _; isplitr; · ipureintro; exact h8.read_unread _
      iexact H5
    isplitl [H6]
    · iexists _; isplitr; · ipureintro; exact h9.read_unread _
      iexact H6
    iexists _; iexact HS

set_option maxHeartbeats 2000000 in
/-- 0 < k < 7: the accumulator, holding xs, is overwritten by xs + product; the output buffer is not touched. -/
noncomputable def runMid (c : Dev nD) (i : grid0.Coords) (a3 : Memref sig .tc .vmem S1024x512 .f32) (h3 : a3.IsWhole) (a4 : Memref sig .tc .vmem S1024x512 .i32) (h4 : a4.IsWhole) (a5 : Memref sig .tc .vmem S1024x1 .f32) (h5 : a5.IsWhole) (a6 : Memref sig .tc .vmem S1024x1 .i32) (h6 : a6.IsWhole) (a7 : Memref sig .tc .vmem S1x1024 .i32) (h7 : a7.IsWhole) (a8 : Memref sig .tc .vmem S1x1 .f32) (h8 : a8.IsWhole) (a9 : Memref sig .tc .vmem S1024x1024 .f32) (h9 : a9.IsWhole) (a10 : Memref sig .tc .vmem S1024x1024 .f32) (h10 : a10.IsWhole) (hc1 : ¬condFirst i) (hc2 : ¬condLast i)
    (x0 : Vec F S1024x512 .f32) (x1 : Vec F S1024x512 .i32) (x2 : Vec F S1024x1 .f32) (x3 : Vec F S1024x1 .i32) (x4 : Vec F S1x1024 .i32) (x5 : Vec F S1x1 .f32) (xs : Vec F S1024x1024 .f32) :
    { LS : List (View.Piece (Elt F) S1024x1024 .f32) //
      ∀ (xo : Vec F S1024x1024 .f32) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ owns (c : Thread nD τ) a9 fullShare xo ∗ owns (c : Thread nD τ) a10 fullShare xs
            ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ owns (c : Thread nD τ) a9 fullShare xo ∗ (∃ f, a10.view.loc (c : Thread nD τ) ↦[a10.view.set]{fullShare} a10.view.writes (Elt F) f LS)) -∗ K ⟨⟩))
          ⊢ wp frame (wpE (defs₀ (F := F)) Variants.none c none) E (cc0__qlinear_kernel i a3 h3 a4 h4 a5 h5 a6 h6 a7 h7 a8 h8 a9 h9 a10 h10) K } := by
  refine ⟨?_, fun xo E K => ?run⟩
  case run =>
    simp only [cc0__qlinear_kernel_eq_skeleton]; unfold cc0__qlinear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := h3.eq_unread hf0; obtain rfl := h4.eq_unread hf1; obtain rfl := h5.eq_unread hf2
    obtain rfl := h6.eq_unread hf3; obtain rfl := h7.eq_unread hf4; obtain rfl := h8.eq_unread hf5
    obtain rfl := h9.eq_unread hf6; obtain rfl := h10.eq_unread hfs
    sl_exec (disch := first | exact hc1 | exact hc2)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    isplitl [H5]
    · iexists _; isplitr; · ipureintro; exact h8.read_unread _
      iexact H5
    isplitl [H6]
    · iexists _; isplitr; · ipureintro; exact h9.read_unread _
      iexact H6
    iexists _; iexact HS

set_option maxHeartbeats 2000000 in
/-- k = 7: the accumulator, holding xs, is overwritten by xs + product, and the output buffer, whatever it held,
    by that + bias. -/
noncomputable def runLast (c : Dev nD) (i : grid0.Coords) (a3 : Memref sig .tc .vmem S1024x512 .f32) (h3 : a3.IsWhole) (a4 : Memref sig .tc .vmem S1024x512 .i32) (h4 : a4.IsWhole) (a5 : Memref sig .tc .vmem S1024x1 .f32) (h5 : a5.IsWhole) (a6 : Memref sig .tc .vmem S1024x1 .i32) (h6 : a6.IsWhole) (a7 : Memref sig .tc .vmem S1x1024 .i32) (h7 : a7.IsWhole) (a8 : Memref sig .tc .vmem S1x1 .f32) (h8 : a8.IsWhole) (a9 : Memref sig .tc .vmem S1024x1024 .f32) (h9 : a9.IsWhole) (a10 : Memref sig .tc .vmem S1024x1024 .f32) (h10 : a10.IsWhole) (hc1 : ¬condFirst i) (hc2 : condLast i)
    (x0 : Vec F S1024x512 .f32) (x1 : Vec F S1024x512 .i32) (x2 : Vec F S1024x1 .f32) (x3 : Vec F S1024x1 .i32) (x4 : Vec F S1x1024 .i32) (x5 : Vec F S1x1 .f32) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ (∃ d, owns (c : Thread nD τ) a9 fullShare d) ∗ owns (c : Thread nD τ) a10 fullShare xs
            ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ (∃ f, a9.view.loc (c : Thread nD τ) ↦[a9.view.set]{fullShare} a9.view.writes (Elt F) f LO) ∗ (∃ f, a10.view.loc (c : Thread nD τ) ↦[a10.view.set]{fullShare} a10.view.writes (Elt F) f LS)) -∗ K ⟨⟩))
          ⊢ wp frame (wpE (defs₀ (F := F)) Variants.none c none) E (cc0__qlinear_kernel i a3 h3 a4 h4 a5 h5 a6 h6 a7 h7 a8 h8 a9 h9 a10 h10) K } := by
  refine ⟨?_, ?_, fun E K => ?run⟩
  case run =>
    simp only [cc0__qlinear_kernel_eq_skeleton]; unfold cc0__qlinear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := h3.eq_unread hf0; obtain rfl := h4.eq_unread hf1; obtain rfl := h5.eq_unread hf2
    obtain rfl := h6.eq_unread hf3; obtain rfl := h7.eq_unread hf4; obtain rfl := h8.eq_unread hf5
    obtain rfl := h10.eq_unread hfs
    sl_exec (disch := first | exact hc1 | exact hc2)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    isplitl [H5]
    · iexists _; isplitr; · ipureintro; exact h8.read_unread _
      iexact H5
    isplitl [H6]; · iexists _; iexact H6
    iexists _; iexact HS

end Cert.KernelIdeal.Hand

end
-- ==== Proof.BodyVals.lean ====
/-
  What the body's stores amount to, in each control case.

  Every store of the body writes a whole 1024 × 1024 buffer, so after the run each written buffer reads as the
  payload of its last store, whatever it held before. With the six input buffers holding x0 … x5 and the
  accumulator xs:
    k = 0      the accumulator ends at  step(x0, x1, x3, x2, zeros)
    0 < k < 7  the accumulator ends at  step(x0, x1, x3, x2, xs)
    k = 7      the accumulator ends at  step(x0, x1, x3, x2, xs)  and the output at  that + bias(x5, x4),
  where step adds the block product to its last argument. These hold at every float instance: they only read
  the run's store lists.
-/
import proofs.«153634_j74594991997150_1_alg».proof.Proof.Gen.KernelIdeal.Launch
import proofs.«153634_j74594991997150_1_alg».proof.Proof.Gen.KernelIdeal.Skeleton
import proofs.«153634_j74594991997150_1_alg».proof.Proof.Gen.KernelIdeal.Points
import proofs.«153634_j74594991997150_1_alg».proof.Proof.Gen.KernelIdeal.Frame
import proofs.«153634_j74594991997150_1_alg».proof.Proof.BodyRun
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The printed zero offsets are the zero function. -/
theorem hz : (![0, 0] : Fin 2 → Nat) = fun _ => 0 := funext fun a => by fin_cases a <;> rfl

/-! ## k = 0 -/

/-- The stores into the accumulator cover it. -/
theorem coverFirst (c : Dev nD) (i : grid0.Coords) (a3 : Memref sig .tc .vmem S1024x512 .f32) (h3 : a3.IsWhole) (a4 : Memref sig .tc .vmem S1024x512 .i32) (h4 : a4.IsWhole) (a5 : Memref sig .tc .vmem S1024x1 .f32) (h5 : a5.IsWhole) (a6 : Memref sig .tc .vmem S1024x1 .i32) (h6 : a6.IsWhole) (a7 : Memref sig .tc .vmem S1x1024 .i32) (h7 : a7.IsWhole) (a8 : Memref sig .tc .vmem S1x1 .f32) (h8 : a8.IsWhole) (a9 : Memref sig .tc .vmem S1024x1024 .f32) (h9 : a9.IsWhole) (a10 : Memref sig .tc .vmem S1024x1024 .f32) (h10 : a10.IsWhole) (hc1 : condFirst i) (hc2 : ¬condLast i)
    (x0 : Vec F S1024x512 .f32) (x1 : Vec F S1024x512 .i32) (x2 : Vec F S1024x1 .f32) (x3 : Vec F S1024x1 .i32) (x4 : Vec F S1x1024 .i32) (x5 : Vec F S1x1 .f32) (y : S1024x1024.Idx) :
    ∃ pc ∈ (runFirst c i a3 h3 a4 h4 a5 h5 a6 h6 a7 h7 a8 h8 a9 h9 a10 h10 hc1 hc2 x0 x1 x2 x3 x4 x5).val, y ∈ pc.1.set :=
  View.cover_of_tiledL (runFirst c i a3 h3 a4 h4 a5 h5 a6 h6 a7 h7 a8 h8 a9 h9 a10 h10 hc1 hc2 x0 x1 x2 x3 x4 x5).val S1024x1024.size (by sl_kernel_rfl) y

/-- The accumulator after the body: the step from zeros. -/
theorem valFirst (c : Dev nD) (i : grid0.Coords) (a3 : Memref sig .tc .vmem S1024x512 .f32) (h3 : a3.IsWhole) (a4 : Memref sig .tc .vmem S1024x512 .i32) (h4 : a4.IsWhole) (a5 : Memref sig .tc .vmem S1024x1 .f32) (h5 : a5.IsWhole) (a6 : Memref sig .tc .vmem S1024x1 .i32) (h6 : a6.IsWhole) (a7 : Memref sig .tc .vmem S1x1024 .i32) (h7 : a7.IsWhole) (a8 : Memref sig .tc .vmem S1x1 .f32) (h8 : a8.IsWhole) (a9 : Memref sig .tc .vmem S1024x1024 .f32) (h9 : a9.IsWhole) (a10 : Memref sig .tc .vmem S1024x1024 .f32) (h10 : a10.IsWhole) (hc1 : condFirst i) (hc2 : ¬condLast i)
    (x0 : Vec F S1024x512 .f32) (x1 : Vec F S1024x512 .i32) (x2 : Vec F S1024x1 .f32) (x3 : Vec F S1024x1 .i32) (x4 : Vec F S1x1024 .i32) (x5 : Vec F S1x1 .f32) (f : a10.view.ty.Contents (Elt F)) :
    a10.view.read (Elt F) (a10.view.writes (Elt F) f (runFirst c i a3 h3 a4 h4 a5 h5 a6 h6 a7 h7 a8 h8 a9 h9 a10 h10 hc1 hc2 x0 x1 x2 x3 x4 x5).val)
      = k0_pay2 x0 x1 x3 x2 (k0_pay1 (F := F)) := by
  rw [View.read_writes_eq_canon _ _ _ (coverFirst c i a3 h3 a4 h4 a5 h5 a6 h6 a7 h7 a8 h8 a9 h9 a10 h10 hc1 hc2 x0 x1 x2 x3 x4 x5)]
  unfold runFirst
  dsimp only
  sl_unfold_words
  rw [View.canon_cons_unit_zero hz]
  simp only [View.readAt_eq_ld, Memref.IsWhole.read_unread, View.ld_unit_zero (S := S1024x512) hz, View.ld_unit_zero (S := S1024x1) hz, View.ld_unit_zero (S := S1024x1024) hz, View.ld_unit_zero (S := S1x1) hz, View.ld_unit_zero (S := S1x1024) hz, View.readCov_unit_zero (S := S1024x1024) _ hz]

/-! ## 0 < k < 7 -/

theorem coverMid (c : Dev nD) (i : grid0.Coords) (a3 : Memref sig .tc .vmem S1024x512 .f32) (h3 : a3.IsWhole) (a4 : Memref sig .tc .vmem S1024x512 .i32) (h4 : a4.IsWhole) (a5 : Memref sig .tc .vmem S1024x1 .f32) (h5 : a5.IsWhole) (a6 : Memref sig .tc .vmem S1024x1 .i32) (h6 : a6.IsWhole) (a7 : Memref sig .tc .vmem S1x1024 .i32) (h7 : a7.IsWhole) (a8 : Memref sig .tc .vmem S1x1 .f32) (h8 : a8.IsWhole) (a9 : Memref sig .tc .vmem S1024x1024 .f32) (h9 : a9.IsWhole) (a10 : Memref sig .tc .vmem S1024x1024 .f32) (h10 : a10.IsWhole) (hc1 : ¬condFirst i) (hc2 : ¬condLast i)
    (x0 : Vec F S1024x512 .f32) (x1 : Vec F S1024x512 .i32) (x2 : Vec F S1024x1 .f32) (x3 : Vec F S1024x1 .i32) (x4 : Vec F S1x1024 .i32) (x5 : Vec F S1x1 .f32) (xs : Vec F S1024x1024 .f32) (y : S1024x1024.Idx) :
    ∃ pc ∈ (runMid c i a3 h3 a4 h4 a5 h5 a6 h6 a7 h7 a8 h8 a9 h9 a10 h10 hc1 hc2 x0 x1 x2 x3 x4 x5 xs).val, y ∈ pc.1.set :=
  View.cover_of_tiledL (runMid c i a3 h3 a4 h4 a5 h5 a6 h6 a7 h7 a8 h8 a9 h9 a10 h10 hc1 hc2 x0 x1 x2 x3 x4 x5 xs).val S1024x1024.size (by sl_kernel_rfl) y

/-- The accumulator after the body: the step from what it held. -/
theorem valMid (c : Dev nD) (i : grid0.Coords) (a3 : Memref sig .tc .vmem S1024x512 .f32) (h3 : a3.IsWhole) (a4 : Memref sig .tc .vmem S1024x512 .i32) (h4 : a4.IsWhole) (a5 : Memref sig .tc .vmem S1024x1 .f32) (h5 : a5.IsWhole) (a6 : Memref sig .tc .vmem S1024x1 .i32) (h6 : a6.IsWhole) (a7 : Memref sig .tc .vmem S1x1024 .i32) (h7 : a7.IsWhole) (a8 : Memref sig .tc .vmem S1x1 .f32) (h8 : a8.IsWhole) (a9 : Memref sig .tc .vmem S1024x1024 .f32) (h9 : a9.IsWhole) (a10 : Memref sig .tc .vmem S1024x1024 .f32) (h10 : a10.IsWhole) (hc1 : ¬condFirst i) (hc2 : ¬condLast i)
    (x0 : Vec F S1024x512 .f32) (x1 : Vec F S1024x512 .i32) (x2 : Vec F S1024x1 .f32) (x3 : Vec F S1024x1 .i32) (x4 : Vec F S1x1024 .i32) (x5 : Vec F S1x1 .f32) (xs : Vec F S1024x1024 .f32) (f : a10.view.ty.Contents (Elt F)) :
    a10.view.read (Elt F) (a10.view.writes (Elt F) f (runMid c i a3 h3 a4 h4 a5 h5 a6 h6 a7 h7 a8 h8 a9 h9 a10 h10 hc1 hc2 x0 x1 x2 x3 x4 x5 xs).val)
      = k0_pay2 x0 x1 x3 x2 xs := by
  rw [View.read_writes_eq_canon _ _ _ (coverMid c i a3 h3 a4 h4 a5 h5 a6 h6 a7 h7 a8 h8 a9 h9 a10 h10 hc1 hc2 x0 x1 x2 x3 x4 x5 xs)]
  unfold runMid
  dsimp only
  sl_unfold_words
  rw [View.canon_unit_zero hz]
  simp only [View.readAt_eq_ld, Memref.IsWhole.read_unread, View.ld_unit_zero (S := S1024x512) hz, View.ld_unit_zero (S := S1024x1) hz, View.ld_unit_zero (S := S1024x1024) hz, View.ld_unit_zero (S := S1x1) hz, View.ld_unit_zero (S := S1x1024) hz]

/-! ## k = 7 -/

theorem coverLastAcc (c : Dev nD) (i : grid0.Coords) (a3 : Memref sig .tc .vmem S1024x512 .f32) (h3 : a3.IsWhole) (a4 : Memref sig .tc .vmem S1024x512 .i32) (h4 : a4.IsWhole) (a5 : Memref sig .tc .vmem S1024x1 .f32) (h5 : a5.IsWhole) (a6 : Memref sig .tc .vmem S1024x1 .i32) (h6 : a6.IsWhole) (a7 : Memref sig .tc .vmem S1x1024 .i32) (h7 : a7.IsWhole) (a8 : Memref sig .tc .vmem S1x1 .f32) (h8 : a8.IsWhole) (a9 : Memref sig .tc .vmem S1024x1024 .f32) (h9 : a9.IsWhole) (a10 : Memref sig .tc .vmem S1024x1024 .f32) (h10 : a10.IsWhole) (hc1 : ¬condFirst i) (hc2 : condLast i)
    (x0 : Vec F S1024x512 .f32) (x1 : Vec F S1024x512 .i32) (x2 : Vec F S1024x1 .f32) (x3 : Vec F S1024x1 .i32) (x4 : Vec F S1x1024 .i32) (x5 : Vec F S1x1 .f32) (xs : Vec F S1024x1024 .f32) (y : S1024x1024.Idx) :
    ∃ pc ∈ (runLast c i a3 h3 a4 h4 a5 h5 a6 h6 a7 h7 a8 h8 a9 h9 a10 h10 hc1 hc2 x0 x1 x2 x3 x4 x5 xs).2.val, y ∈ pc.1.set :=
  View.cover_of_tiledL (runLast c i a3 h3 a4 h4 a5 h5 a6 h6 a7 h7 a8 h8 a9 h9 a10 h10 hc1 hc2 x0 x1 x2 x3 x4 x5 xs).2.val S1024x1024.size (by sl_kernel_rfl) y

theorem coverLastOut (c : Dev nD) (i : grid0.Coords) (a3 : Memref sig .tc .vmem S1024x512 .f32) (h3 : a3.IsWhole) (a4 : Memref sig .tc .vmem S1024x512 .i32) (h4 : a4.IsWhole) (a5 : Memref sig .tc .vmem S1024x1 .f32) (h5 : a5.IsWhole) (a6 : Memref sig .tc .vmem S1024x1 .i32) (h6 : a6.IsWhole) (a7 : Memref sig .tc .vmem S1x1024 .i32) (h7 : a7.IsWhole) (a8 : Memref sig .tc .vmem S1x1 .f32) (h8 : a8.IsWhole) (a9 : Memref sig .tc .vmem S1024x1024 .f32) (h9 : a9.IsWhole) (a10 : Memref sig .tc .vmem S1024x1024 .f32) (h10 : a10.IsWhole) (hc1 : ¬condFirst i) (hc2 : condLast i)
    (x0 : Vec F S1024x512 .f32) (x1 : Vec F S1024x512 .i32) (x2 : Vec F S1024x1 .f32) (x3 : Vec F S1024x1 .i32) (x4 : Vec F S1x1024 .i32) (x5 : Vec F S1x1 .f32) (xs : Vec F S1024x1024 .f32) (y : S1024x1024.Idx) :
    ∃ pc ∈ (runLast c i a3 h3 a4 h4 a5 h5 a6 h6 a7 h7 a8 h8 a9 h9 a10 h10 hc1 hc2 x0 x1 x2 x3 x4 x5 xs).1, y ∈ pc.1.set :=
  View.cover_of_tiledL (runLast c i a3 h3 a4 h4 a5 h5 a6 h6 a7 h7 a8 h8 a9 h9 a10 h10 hc1 hc2 x0 x1 x2 x3 x4 x5 xs).1 S1024x1024.size (by sl_kernel_rfl) y

/-- The accumulator after the body: the step from what it held. -/
theorem valLastAcc (c : Dev nD) (i : grid0.Coords) (a3 : Memref sig .tc .vmem S1024x512 .f32) (h3 : a3.IsWhole) (a4 : Memref sig .tc .vmem S1024x512 .i32) (h4 : a4.IsWhole) (a5 : Memref sig .tc .vmem S1024x1 .f32) (h5 : a5.IsWhole) (a6 : Memref sig .tc .vmem S1024x1 .i32) (h6 : a6.IsWhole) (a7 : Memref sig .tc .vmem S1x1024 .i32) (h7 : a7.IsWhole) (a8 : Memref sig .tc .vmem S1x1 .f32) (h8 : a8.IsWhole) (a9 : Memref sig .tc .vmem S1024x1024 .f32) (h9 : a9.IsWhole) (a10 : Memref sig .tc .vmem S1024x1024 .f32) (h10 : a10.IsWhole) (hc1 : ¬condFirst i) (hc2 : condLast i)
    (x0 : Vec F S1024x512 .f32) (x1 : Vec F S1024x512 .i32) (x2 : Vec F S1024x1 .f32) (x3 : Vec F S1024x1 .i32) (x4 : Vec F S1x1024 .i32) (x5 : Vec F S1x1 .f32) (xs : Vec F S1024x1024 .f32) (f : a10.view.ty.Contents (Elt F)) :
    a10.view.read (Elt F) (a10.view.writes (Elt F) f (runLast c i a3 h3 a4 h4 a5 h5 a6 h6 a7 h7 a8 h8 a9 h9 a10 h10 hc1 hc2 x0 x1 x2 x3 x4 x5 xs).2.val)
      = k0_pay2 x0 x1 x3 x2 xs := by
  rw [View.read_writes_eq_canon _ _ _ (coverLastAcc c i a3 h3 a4 h4 a5 h5 a6 h6 a7 h7 a8 h8 a9 h9 a10 h10 hc1 hc2 x0 x1 x2 x3 x4 x5 xs)]
  unfold runLast
  dsimp only
  sl_unfold_words
  rw [View.canon_unit_zero hz]
  simp only [View.readAt_eq_ld, Memref.IsWhole.read_unread, View.ld_unit_zero (S := S1024x512) hz, View.ld_unit_zero (S := S1024x1) hz, View.ld_unit_zero (S := S1024x1024) hz, View.ld_unit_zero (S := S1x1) hz, View.ld_unit_zero (S := S1x1024) hz]

/-- The output buffer after the body: the finished accumulator plus the bias row. -/
theorem valLastOut (c : Dev nD) (i : grid0.Coords) (a3 : Memref sig .tc .vmem S1024x512 .f32) (h3 : a3.IsWhole) (a4 : Memref sig .tc .vmem S1024x512 .i32) (h4 : a4.IsWhole) (a5 : Memref sig .tc .vmem S1024x1 .f32) (h5 : a5.IsWhole) (a6 : Memref sig .tc .vmem S1024x1 .i32) (h6 : a6.IsWhole) (a7 : Memref sig .tc .vmem S1x1024 .i32) (h7 : a7.IsWhole) (a8 : Memref sig .tc .vmem S1x1 .f32) (h8 : a8.IsWhole) (a9 : Memref sig .tc .vmem S1024x1024 .f32) (h9 : a9.IsWhole) (a10 : Memref sig .tc .vmem S1024x1024 .f32) (h10 : a10.IsWhole) (hc1 : ¬condFirst i) (hc2 : condLast i)
    (x0 : Vec F S1024x512 .f32) (x1 : Vec F S1024x512 .i32) (x2 : Vec F S1024x1 .f32) (x3 : Vec F S1024x1 .i32) (x4 : Vec F S1x1024 .i32) (x5 : Vec F S1x1 .f32) (xs : Vec F S1024x1024 .f32) (f : a9.view.ty.Contents (Elt F)) :
    a9.view.read (Elt F) (a9.view.writes (Elt F) f (runLast c i a3 h3 a4 h4 a5 h5 a6 h6 a7 h7 a8 h8 a9 h9 a10 h10 hc1 hc2 x0 x1 x2 x3 x4 x5 xs).1)
      = k0_pay3 x5 x4 (k0_pay2 x0 x1 x3 x2 xs) := by
  rw [View.read_writes_eq_canon _ _ _ (coverLastOut c i a3 h3 a4 h4 a5 h5 a6 h6 a7 h7 a8 h8 a9 h9 a10 h10 hc1 hc2 x0 x1 x2 x3 x4 x5 xs)]
  unfold runLast
  dsimp only
  sl_unfold_words
  rw [View.canon_unit_zero hz]
  simp only [View.readAt_eq_ld, Memref.IsWhole.read_unread, View.ld_unit_zero (S := S1024x512) hz, View.ld_unit_zero (S := S1024x1) hz, View.ld_unit_zero (S := S1024x1024) hz, View.ld_unit_zero (S := S1x1) hz, View.ld_unit_zero (S := S1x1024) hz, View.readCov_unit_zero (S := S1024x1024) _ hz]

end Cert.KernelIdeal.Hand

end
-- ==== Proof.Spec.lean ====
/-
  The specification of the quantized linear layer over the extended reals.

  With x : [4, 2048, 4096], integer weights q : [11008, 4096], per-row scales ws : [11008] and zero points
  zp : [11008], integer biases bq : [11008] and one bias scale bs : [1], the result at (b, s, o) is

      (Σ_{k < 4096} x[b, s, k] · (ws[o] · (q[o, k] − zp[o]))) + bs[0] · bq[o],

  every integer read as the real number it denotes. Also here: a sum over 8 · 512 consecutive positions is the
  eight block sums added one after the other from zero, which is how a contraction accumulated block by block
  meets the one sum. It uses only that addition on the extended reals is commutative and associative, so no
  finiteness of any input is needed.
-/
import Idealize.ShloMosaic.PureOps.Ideal
import Idealize.ShloMosaic.PureOps.Ideal.Laws
import Idealize.ShloMosaic.Lib.ValueIdx

noncomputable section

namespace Cert.QLinear

open Idealize.ShloMosaic Idealize.ShloMosaic.ValueIdx

/-- The integer a 32-bit word denotes, read signed, as an extended real. -/
def ofInt (b : BitVec 32) : EReal := ((b.toInt : ℝ) : EReal)

/-- The dequantized weight at row `o`, column `k`: scale · (q − zero point). -/
def wdeq (q : (⟨2, ![11008, 4096]⟩ : Shape).Idx → BitVec 32) (ws : (⟨1, ![11008]⟩ : Shape).Idx → EReal)
    (zp : (⟨1, ![11008]⟩ : Shape).Idx → BitVec 32) (o : Fin 11008) (k : Fin 4096) : EReal :=
  ws (ix1 o) * (ofInt (q (ix2 o k)) - ofInt (zp (ix1 o)))

/-- One term of the contraction: x[b, s, k] · w[o, k]. -/
def term (x : (⟨3, ![4, 2048, 4096]⟩ : Shape).Idx → EReal) (q : (⟨2, ![11008, 4096]⟩ : Shape).Idx → BitVec 32)
    (ws : (⟨1, ![11008]⟩ : Shape).Idx → EReal) (zp : (⟨1, ![11008]⟩ : Shape).Idx → BitVec 32)
    (b : Fin 4) (s : Fin 2048) (o : Fin 11008) (k : Fin 4096) : EReal :=
  x (ix3 b s k) * wdeq q ws zp o k

/-- The bias at output column `o`: the one scale times the integer bias. -/
def bias (bq : (⟨1, ![11008]⟩ : Shape).Idx → BitVec 32) (bs : (⟨1, ![1]⟩ : Shape).Idx → EReal) (o : Fin 11008) : EReal :=
  bs (ix1 0) * ofInt (bq (ix1 o))

/-- The layer's result, index by index. -/
def G (x : (⟨3, ![4, 2048, 4096]⟩ : Shape).Idx → EReal) (q : (⟨2, ![11008, 4096]⟩ : Shape).Idx → BitVec 32)
    (ws : (⟨1, ![11008]⟩ : Shape).Idx → EReal) (zp bq : (⟨1, ![11008]⟩ : Shape).Idx → BitVec 32)
    (bs : (⟨1, ![1]⟩ : Shape).Idx → EReal) : (⟨3, ![4, 2048, 11008]⟩ : Shape).Idx → EReal :=
  fun j => (∑ k : Fin 4096, term x q ws zp (j 0) (j 1) (j 2) k) + bias bq bs (j 2)

/-! ## A sum accumulated block by block -/

/-- The partial sums of `f` over the first `n` blocks of 512, accumulated from zero one block at a time. -/
def blockAcc (f : ℕ → EReal) : ℕ → EReal
  | 0 => 0
  | n + 1 => blockAcc f n + ∑ kk : Fin 512, f (n * 512 + kk.val)

theorem blockAcc_zero (f : ℕ → EReal) : blockAcc f 0 = 0 := rfl
theorem blockAcc_succ (f : ℕ → EReal) (n : ℕ) :
    blockAcc f (n + 1) = blockAcc f n + ∑ kk : Fin 512, f (n * 512 + kk.val) := rfl

/-- After `n` blocks the accumulated value is the sum over the first `n · 512` positions. -/
theorem blockAcc_eq_sum_range (f : ℕ → EReal) (n : ℕ) : blockAcc f n = ∑ i ∈ Finset.range (n * 512), f i := by
  induction n with
  | zero => simp [blockAcc]
  | succ n ih =>
    rw [blockAcc_succ, ih, Nat.succ_mul, Finset.sum_range_add, Fin.sum_univ_eq_sum_range (fun kk => f (n * 512 + kk)) 512]

/-- Eight blocks of 512 make the whole contraction of length 4096. -/
theorem blockAcc_eight (f : ℕ → EReal) : blockAcc f 8 = ∑ k : Fin 4096, f k.val := by
  rw [blockAcc_eq_sum_range, Fin.sum_univ_eq_sum_range (fun k => f k) 4096]

end Cert.QLinear

end
-- ==== Proof.LibClipIn.lean ====
/-
  What an input window's staging buffer holds when the blocks do not tile the array.

  At each grid point t a pipeline fetches block "index t" of an input window's array into a staging buffer of the
  block's shape: block coordinate j on axis a stands for the array coordinate  index t a · size a + j a.  When a
  block size does not divide the array's extent, the last block on that axis overhangs the array's end and the
  transfer is cut there: only the block coordinates whose array coordinates lie inside the array are moved (the
  moved part, a leading box of the block), and the rest of the buffer holds contents that nothing names.

  "arrBlock w A t" is the block at point t written in array coordinates: at a block index all of whose array
  coordinates lie inside the array it is the array's entry there, and elsewhere an arbitrary value. It depends on
  the point only through the block index ("arrBlock_congr"), and its moved part is exactly what a fetch reads
  ("cut_arrBlock"). The cut of a block at the array's end is a function of the block index ("clip_unique",
  "clip_congr"): so at a point that does not fetch, where the block index has not moved, the previous point's block
  is this point's and is cut alike. Hence, for an input window that the body only reads (the proof data hands back
  "arrBlock" at every point) and that is live at every point:
    * "cut_fetched_eq":  a buffer just fetched agrees with "arrBlock" on the moved part;
    * "before_eq_fetched", "cut_before_eq":  so does the buffer the body finds, at EVERY point, fetched there or not;
    * "before_apply":  an entry of that buffer at a block index inside the array IS the array's entry;
    * "before_eq_fill":  the buffer is its own refill by the moved part of what the body hands back.
-/
import Idealize.ShloMosaic.Lib.Pipeline.FrameBody

noncomputable section

namespace Idealize.ShloMosaic

open Idealize.SL
open Idealize.SL.BI (sProp)
open scoped Idealize.SL.BI
open Idealize.SL.BI.BIBase Idealize.SL.BI.Laws Idealize.SL.Sem Idealize.SL.ProofMode
open Idealize.SL.RA
open TcCoe

namespace Pipeline

namespace ClipIn

/-! ### The cut of a block is a function of its index -/

/-- The cut of the block at index "ix" (block size "k", array extent "d") is unique: the block either ends inside
    the array, "(ix + 1) * k ≤ d", or is cut at the array's end, at "n = d - ix * k" with "n < k"; the two exclude
    each other and the second fixes "n". -/
theorem clip_unique {ix k d : Nat} {c c' : Clip} (h : Clip.Ok ix k d c) (h' : Clip.Ok ix k d c') : c = c' := by
  cases c with
  | none =>
    cases c' with
    | none => rfl
    | some n' =>
      have h1 : (ix + 1) * k ≤ d := h
      obtain ⟨_, h2, h3⟩ : 0 < n' ∧ n' < k ∧ ix * k + n' = d := h'
      rw [Nat.succ_mul] at h1; omega
  | some n =>
    obtain ⟨_, h2, h3⟩ : 0 < n ∧ n < k ∧ ix * k + n = d := h
    cases c' with
    | none =>
      have h1 : (ix + 1) * k ≤ d := h'
      rw [Nat.succ_mul] at h1; omega
    | some n' =>
      obtain ⟨_, _, h3'⟩ : 0 < n' ∧ n' < k ∧ ix * k + n' = d := h'
      have e : n = n' := by omega
      rw [e]

/-- A block coordinate "j" whose array coordinate "ix * k + j" lies inside the array is among those the transfer
    moves: uncut, all of the block is moved; cut at "n" with "ix * k + n = d", the coordinate is below "n". -/
theorem lt_extent_of_inb {ix k d : Nat} {c : Clip} (h : Clip.Ok ix k d c) {j : Nat} (hj : j < k) (hd : ix * k + j < d) :
    j < c.extent k := by
  cases c with
  | none => exact hj
  | some n =>
    obtain ⟨_, _, h3⟩ : 0 < n ∧ n < k ∧ ix * k + n = d := h
    show j < n; omega

section Block

variable {nD : Nat} {τ : Topo} {sig : RefSig} {Val : EltTy → Type} {Λ₀ : SL.Sem.Labels} {cfg : Cfg sig Λ₀} {c : Dev nD}

/-- Two points with one block index cut the block alike, on every axis. -/
theorem clip_congr (w : Fin cfg.W) {t t' : Fin cfg.N} (h : (cfg.win w).index t = (cfg.win w).index t') :
    (cfg.win w).clip (cfg.grid.coords t) = (cfg.win w).clip (cfg.grid.coords t') := by
  funext a
  have h1 := (cfg.win w).hclip (cfg.grid.coords t) a
  have h2 := (cfg.win w).hclip (cfg.grid.coords t') a
  have e : (cfg.win w).indexMap (cfg.grid.coords t) a = (cfg.win w).indexMap (cfg.grid.coords t') a := congrFun h a
  rw [e] at h1
  exact clip_unique h1 h2

/-- A block index whose array coordinates all lie inside the array is one the transfer at the point moves. -/
theorem moved_of_inb (w : Fin cfg.W) (t : Fin cfg.N) (j : (cfg.win w).block.Idx)
    (h : ∀ a, (cfg.win w).index t a * (cfg.win w).size a + (j a).val < (cfg.win w).shape.size a) :
    (cfg.win w).moved (cfg.grid.coords t) j = true :=
  ((cfg.win w).moved_iff _ j).mpr fun a => lt_extent_of_inb ((cfg.win w).hclip (cfg.grid.coords t) a) (j a).isLt (h a)

/-- Conversely a block index the transfer at the point moves has all its array coordinates inside the array: the
    moved part of the block lies inside the array. -/
theorem inb_of_moved (w : Fin cfg.W) (t : Fin cfg.N) (j : (cfg.win w).block.Idx)
    (hj : (cfg.win w).moved (cfg.grid.coords t) j = true) (a : Fin (cfg.win w).shape.rank) :
    (cfg.win w).index t a * (cfg.win w).size a + (j a).val < (cfg.win w).shape.size a := by
  have h1 : (cfg.win w).indexMap (cfg.grid.coords t) a * (cfg.win w).size a
      + ((cfg.win w).clip (cfg.grid.coords t) a).extent ((cfg.win w).size a) ≤ (cfg.win w).shape.size a :=
    Clip.inb ((cfg.win w).hclip (cfg.grid.coords t) a)
  have h2 : (j a).val < ((cfg.win w).clip (cfg.grid.coords t) a).extent ((cfg.win w).size a) :=
    ((cfg.win w).moved_iff _ j).mp hj a
  show (cfg.win w).indexMap (cfg.grid.coords t) a * (cfg.win w).size a + (j a).val < (cfg.win w).shape.size a
  omega

/-- Refilling contents "d" with the moved part of contents "X" gives "X" at a block index the transfer moves. -/
theorem fill_cut_apply {α : Type} (w : Fin cfg.W) (i : cfg.grid.Coords) (d X : (cfg.win w).block.Idx → α)
    (j : (cfg.win w).block.Idx) (hj : (cfg.win w).moved i j = true) :
    (cfg.win w).fill i d ((cfg.win w).cut i X) j = X j := by
  unfold Window.fill; rw [dif_pos hj]

variable [∀ e, Nonempty (Val e)]

/-- Window "w"'s block at point "t" in ARRAY coordinates, over the array's contents "A": at a block index "j" whose
    array coordinates "index t a * size a + j a" all lie inside the array, the array's entry at that multi-index
    (read through the array's own view); at any other block index (one past the array's end), an arbitrary value.
    One type for every point, whatever the cut there. -/
def arrBlock (w : Fin cfg.W) (A : Buf Val ((cfg.win w).arr.view.loc (c.tc : Thread nD τ))) (t : Fin cfg.N) :
    (cfg.win w).block.Idx → Val (cfg.win w).elt := fun j =>
  if h : ∀ a, (cfg.win w).index t a * (cfg.win w).size a + (j a).val < (cfg.win w).shape.size a then
    (cfg.win w).arr.view.read Val A fun a => ⟨(cfg.win w).index t a * (cfg.win w).size a + (j a).val, h a⟩
  else Classical.arbitrary _

/-- "arrBlock" at a block index inside the array is the array's entry. -/
theorem arrBlock_apply (w : Fin cfg.W) (A : Buf Val ((cfg.win w).arr.view.loc (c.tc : Thread nD τ))) (t : Fin cfg.N)
    (j : (cfg.win w).block.Idx)
    (h : ∀ a, (cfg.win w).index t a * (cfg.win w).size a + (j a).val < (cfg.win w).shape.size a) :
    arrBlock w A t j
      = (cfg.win w).arr.view.read Val A fun a => ⟨(cfg.win w).index t a * (cfg.win w).size a + (j a).val, h a⟩ := by
  unfold arrBlock; rw [dif_pos h]

/-- "arrBlock" depends on the point only through the block index. -/
theorem arrBlock_congr (w : Fin cfg.W) (A : Buf Val ((cfg.win w).arr.view.loc (c.tc : Thread nD τ))) {t t' : Fin cfg.N}
    (h : (cfg.win w).index t = (cfg.win w).index t') : arrBlock w A t = arrBlock w A t' := by
  unfold arrBlock; rw [h]

/-- The moved part of "arrBlock" is what a fetch at the point reads: the block's part inside the array. A moved
    block coordinate "j a" is the coordinate "index t a * size a + 1 * j a" of the array's rectangle the transfer
    reads, which is the array coordinate "arrBlock" reads at. -/
theorem cut_arrBlock (w : Fin cfg.W) (A : Buf Val ((cfg.win w).arr.view.loc (c.tc : Thread nD τ))) (t : Fin cfg.N) :
    (cfg.win w).cut (cfg.grid.coords t) (arrBlock w A t) = ((cfg.win w).blk t).view.read Val A := by
  funext j
  have hin := inb_of_moved w t _ ((cfg.win w).moved_xinj (cfg.grid.coords t) j)
  show arrBlock w A t ((cfg.win w).xinj (cfg.grid.coords t) j) = _
  rw [arrBlock_apply w A t _ hin, View.read_apply, View.read_apply]
  show _root_.cast _ (A ((cfg.win w).arr.view.emb _))
    = _root_.cast _ (A ((cfg.win w).arr.view.emb (((cfg.win w).rect t).emb j)))
  congr 3
  funext a; apply Fin.ext
  rw [Rect.emb_apply]
  show (cfg.win w).index t a * (cfg.win w).size a + (j a).val = (cfg.win w).index t a * (cfg.win w).size a + 1 * (j a).val
  omega

end Block

section Before

variable {nD : Nat} {τ : Topo} {sig : RefSig} {Val : EltTy → Type}
variable {Ix : Type} [DecidableEq Ix] {Name : Type} [DecidableEq Name] {U : Type} [URA U] {Lvl : Type}
variable {Λ₀ : SL.Sem.Labels} {cfg : Cfg sig Λ₀} {c : Dev nD} (dat : Dat τ Val Ix Name U Lvl cfg c)
variable [∀ e, Nonempty (Val e)]

/-- A buffer just fetched holds, on the moved part, the array's entries: both sides are what the fetch reads. -/
theorem cut_fetched_eq (w : Fin cfg.W) (t : Fin cfg.N) (d : (cfg.win w).block.Idx → Val (cfg.win w).elt) :
    (cfg.win w).cut (cfg.grid.coords t) (dat.fetched w t d)
      = (cfg.win w).cut (cfg.grid.coords t) (arrBlock w (dat.A w) t) := by
  rw [dat.cut_fetched, cut_arrBlock]; rfl

/-- An INPUT window the body only reads ("hafter": the proof data hands back "arrBlock" at every point), live at
    every point, holds at every point what a fetch there would put in its buffer, fetched there or not: where it is
    not fetched the block index has not moved, so the previous point's block is this point's and is cut alike. -/
theorem before_eq_fetched (w : Fin cfg.W) (hw : (cfg.win w).isOut = false) (hlive : ∀ i, cfg.idle w i = false)
    (hafter : ∀ t, dat.after w t = arrBlock w (dat.A w) t)
    (t : Fin cfg.N) (d : (cfg.win w).block.Idx → Val (cfg.win w).elt) : dat.before w t d = dat.fetched w t d :=
  dat.before_in_eq_fetched w hw hlive (fun _ _ h => clip_congr w h)
    (fun t => by rw [hafter t]; exact cut_arrBlock w (dat.A w) t) t d

/-- Such a window's buffer, as the body finds it, holds on the moved part the array's entries, at every point. -/
theorem cut_before_eq (w : Fin cfg.W) (hw : (cfg.win w).isOut = false) (hlive : ∀ i, cfg.idle w i = false)
    (hafter : ∀ t, dat.after w t = arrBlock w (dat.A w) t)
    (t : Fin cfg.N) (d : (cfg.win w).block.Idx → Val (cfg.win w).elt) :
    (cfg.win w).cut (cfg.grid.coords t) (dat.before w t d)
      = (cfg.win w).cut (cfg.grid.coords t) (arrBlock w (dat.A w) t) := by
  rw [before_eq_fetched dat w hw hlive hafter t d]; exact cut_fetched_eq dat w t d

/-- The entry the body reads of such a window's buffer at a block index inside the array IS the array's entry at
    the array coordinates "index t a * size a + j a". -/
theorem before_apply (w : Fin cfg.W) (hw : (cfg.win w).isOut = false) (hlive : ∀ i, cfg.idle w i = false)
    (hafter : ∀ t, dat.after w t = arrBlock w (dat.A w) t)
    (t : Fin cfg.N) (d : (cfg.win w).block.Idx → Val (cfg.win w).elt) (j : (cfg.win w).block.Idx)
    (h : ∀ a, (cfg.win w).index t a * (cfg.win w).size a + (j a).val < (cfg.win w).shape.size a) :
    dat.before w t d j
      = (cfg.win w).arr.view.read Val (dat.A w) fun a => ⟨(cfg.win w).index t a * (cfg.win w).size a + (j a).val, h a⟩ := by
  have hm := moved_of_inb w t j h
  have hc := congrFun (cut_before_eq dat w hw hlive hafter t d) fun a => ⟨(j a).val, ((cfg.win w).moved_iff _ j).mp hm a⟩
  exact hc.trans (arrBlock_apply w (dat.A w) t j h)

/-- Such a window's buffer, as the body finds it, is its own refill by the moved part of what the body hands back:
    the form the body's obligation takes for a window stated on the moved part only. -/
theorem before_eq_fill (w : Fin cfg.W) (hw : (cfg.win w).isOut = false) (hlive : ∀ i, cfg.idle w i = false)
    (hafter : ∀ t, dat.after w t = arrBlock w (dat.A w) t)
    (t : Fin cfg.N) (d : (cfg.win w).block.Idx → Val (cfg.win w).elt) :
    dat.before w t d
      = (cfg.win w).fill (cfg.grid.coords t) (dat.before w t d) ((cfg.win w).cut (cfg.grid.coords t) (dat.after w t)) :=
  ((cfg.win w).fill_congr_cut _ (by rw [hafter t]; exact cut_before_eq dat w hw hlive hafter t d)).symm

end Before

end ClipIn

end Pipeline

end Idealize.ShloMosaic

end
-- ==== Proof.OutCover.lean ====
/-
  The geometry of the idealized kernel's output window: which grid points write which rectangles of the output
  array, and that these rectangles cover it.

  The output array has 8192 rows and 11008 columns; the window's blocks are 1024 by 1024. The grid is
  (i, j, k) = (8, 11, 8) with k innermost, so the point at position t has i = t / 88, j = (t / 8) % 11 and
  k = t % 8, and the window's block index at it is (i, j). A block is written back exactly at the points with
  k = 7. The block with index (i, j) is the rectangle of rows 1024 i .. 1024 i + 1023 and of columns from 1024 j
  on: 1024 of them for j < 10, and for j = 10 only the 768 that lie inside the array (11008 = 10 * 1024 + 768).

  Every index (r, o) of the array therefore lies in the block written back at the point
  t = ((r / 1024) * 11 + o / 1024) * 8 + 7: r < 8192 and o < 11008 give r / 1024 < 8 and o / 1024 < 11, so
  t < 704; t % 8 = 7; the block index there is (r / 1024, o / 1024); and when o / 1024 = 10 the bound o < 11008 is
  exactly the cut block's last column. So the written rectangles cover the array.

  Last, the position in the array of an element of a block: on each axis, the block index times 1024 plus the
  coordinate inside the block.
-/
import proofs.«153634_j74594991997150_1_alg».proof.Proof.Gen.KernelIdeal.Points
import proofs.«153634_j74594991997150_1_alg».proof.Proof.Gen.KernelIdeal.Launch
import Idealize.ShloMosaic.Lib.Pipeline.Value

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

/-- The output window's block index at the point at position t is (t / 88, (t / 8) % 11): decided over the grid. -/
theorem index6 : ∀ t : Fin cfg0.N, (cfg0.win 6).index t (0 : Fin 2) = t.val / 88
    ∧ (cfg0.win 6).index t (1 : Fin 2) = (t.val / 8) % 11 :=
  (by decide +kernel : ∀ t : Fin grid0.N, win0_6.index t (0 : Fin 2) = t.val / 88
    ∧ win0_6.index t (1 : Fin 2) = (t.val / 8) % 11)

/-- What the write-back at a point moves: all 1024 rows of the block, and all 1024 columns but in the last column
    of blocks, where only the 768 inside the array: decided over the grid. -/
theorem xsize6 : ∀ t : Fin cfg0.N, (cfg0.win 6).xsize (grid0.coords t) (0 : Fin 2) = 1024
    ∧ (cfg0.win 6).xsize (grid0.coords t) (1 : Fin 2) = (if (t.val / 8) % 11 = 10 then 768 else 1024) :=
  (by decide +kernel : ∀ t : Fin grid0.N, win0_6.xsize (grid0.coords t) (0 : Fin 2) = 1024
    ∧ win0_6.xsize (grid0.coords t) (1 : Fin 2) = (if (t.val / 8) % 11 = 10 then 768 else 1024))

/-- An index of the array is in the block at point t iff each coordinate is in the block's range on its axis. -/
theorem mem_blk6 (t : Fin cfg0.N) (i : S8192x11008.Idx) :
    i ∈ ((cfg0.win 6).blk t).view.set ↔ ∀ a : Fin 2, (cfg0.win 6).index t a * 1024 ≤ (i a).val
      ∧ (i a).val < (cfg0.win 6).index t a * 1024 + (cfg0.win 6).xsize (grid0.coords t) a := by
  show i ∈ ((View.whole main_v5).slice (win0_6.rect t)).set ↔ _
  rw [View.set_slice_whole, Rect.mem_set_unit]
  refine forall_congr' fun a => ?_
  match a with
  | ⟨0, _⟩ => exact Iff.rfl
  | ⟨1, _⟩ => exact Iff.rfl

/-- The written rectangles cover the array: (r, o) is in the block written back at
    ((r / 1024) * 11 + o / 1024) * 8 + 7. -/
theorem cover6 (c : Dev nD) : ∀ i : ((cfg0.win 6).arr.view.loc (c.tc : Thread nD τ)).2.ty.Idx,
    ∃ t : Fin cfg0.N, (cfg0.win 6).flush t = true ∧ i ∈ ((cfg0.win 6).blk t).view.set := by
  intro (i : S8192x11008.Idx)
  have hr : (i 0).val < 8192 := (i 0).isLt
  have ho : (i 1).val < 11008 := (i 1).isLt
  have hN : ((i 0).val / 1024 * 11 + (i 1).val / 1024) * 8 + 7 < cfg0.N :=
    lt_of_lt_of_eq (by omega) (show (704 : Nat) = cfg0.N from N_0.symm)
  let t : Fin cfg0.N := ⟨((i 0).val / 1024 * 11 + (i 1).val / 1024) * 8 + 7, hN⟩
  have tv : t.val = ((i 0).val / 1024 * 11 + (i 1).val / 1024) * 8 + 7 := rfl
  refine ⟨t, (flush0_6 t).mpr (by omega), ?_⟩
  rw [mem_blk6]
  obtain ⟨e0, e1⟩ := index6 t
  obtain ⟨s0, s1⟩ := xsize6 t
  intro a
  match a with
  | ⟨0, _⟩ =>
    show (cfg0.win 6).index t (0 : Fin 2) * 1024 ≤ (i 0).val
      ∧ (i 0).val < (cfg0.win 6).index t (0 : Fin 2) * 1024 + (cfg0.win 6).xsize (grid0.coords t) (0 : Fin 2)
    rw [e0, s0]; omega
  | ⟨1, _⟩ =>
    show (cfg0.win 6).index t (1 : Fin 2) * 1024 ≤ (i 1).val
      ∧ (i 1).val < (cfg0.win 6).index t (1 : Fin 2) * 1024 + (cfg0.win 6).xsize (grid0.coords t) (1 : Fin 2)
    rw [e1, s1]
    split <;> omega

/-- An element of the block at point t sits in the array, on each axis, at the block index times 1024 plus its
    coordinate inside the block. -/
theorem emb6_val (t : Fin cfg0.N) (y : ((cfg0.win 6).xblock (grid0.coords t)).Idx) (a : Fin 2) :
    ((((cfg0.win 6).blk t).view.emb y) a).val = (cfg0.win 6).index t a * 1024 + (y a).val := by
  match a with
  | ⟨0, _⟩ =>
    show (cfg0.win 6).index t (0 : Fin 2) * 1024 + 1 * (y 0).val = (cfg0.win 6).index t (0 : Fin 2) * 1024 + (y 0).val
    omega
  | ⟨1, _⟩ =>
    show (cfg0.win 6).index t (1 : Fin 2) * 1024 + 1 * (y 1).val = (cfg0.win 6).index t (1 : Fin 2) * 1024 + (y 1).val
    omega

end Cert.KernelIdeal.Hand

end
-- ==== Proof.IdealData.lean ====
/-
  The idealized kernel's run, named value by value.

  The grid is (i, j, k) = (8, 11, 8), k innermost, so point t has i = t / 88, j = (t / 8) mod 11, k = t mod 8.
  Write X, Q, W, Z, B, S for the arrays as the region finds them: x reshaped to [8192, 4096], the integer
  weights [11008, 4096], scales and zero points as columns [11008, 1], the integer bias as a row [1, 11008],
  the bias scale [1, 1]. The term of the contraction at row r, output column o, position k is
      T r o k = X[r, k] · (W[o, 0] · (Q[o, k] − Z[o, 0])).
  After the body at point t the accumulator holds, at (p, q) with j·1024 + q inside the array, the sum of T over
  the first (k + 1) blocks of 512 positions at row i·1024 + p and column j·1024 + q, accumulated block by block
  from zero; columns past the array's end hold values nothing names. At k = 7 the output block receives that
  plus the bias, so the output array ends at
      G6[r, o] = (T r o summed over the eight blocks) + S[0, 0] · B[0, o].
-/
import proofs.«153634_j74594991997150_1_alg».proof.Proof.Gen.KernelIdeal.Launch
import proofs.«153634_j74594991997150_1_alg».proof.Proof.Gen.KernelIdeal.Skeleton
import proofs.«153634_j74594991997150_1_alg».proof.Proof.Gen.KernelIdeal.Points
import proofs.«153634_j74594991997150_1_alg».proof.Proof.Gen.KernelIdeal.Frame
import proofs.«153634_j74594991997150_1_alg».proof.Proof.BodyVals
import proofs.«153634_j74594991997150_1_alg».proof.Proof.Spec
import proofs.«153634_j74594991997150_1_alg».proof.Proof.LibClipIn
import proofs.«153634_j74594991997150_1_alg».proof.Proof.OutCover
import Idealize.ShloMosaic.Lib.Pipeline.Value
import Idealize.ShloMosaic.Lib.ValueIdx
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.QLinear

variable {F : FTy → Type} [FloatOps F]

local notation "𝕄" => MT nD τ sig Unit (Elt F) ℕ (UR sig nD τ) ℕ
open Idealize.ShloMosaic.Pipeline.ClipIn (arrBlock)

variable (m : (ℓ : Loc nD τ sig) → Buf (Elt Ideal) ℓ) (ρ : Dev nD → PrngReg)

/-! ## The arrays as the region finds them, and the terms over them -/

abbrev aX (c : Dev nD) : S8192x4096.Idx → EReal := V m c main_v0
abbrev aQ (c : Dev nD) : S11008x4096.Idx → BitVec 32 := V m c main_arg1
abbrev aW (c : Dev nD) : S11008x1.Idx → EReal := V m c main_v1
abbrev aZ (c : Dev nD) : S11008x1.Idx → BitVec 32 := V m c main_v2
abbrev aB (c : Dev nD) : S1x11008.Idx → BitVec 32 := V m c main_v3
abbrev aS (c : Dev nD) : S1x1.Idx → EReal := V m c main_v4

/-- One term of the contraction at row `r`, output column `o`, position `k` (zero outside the arrays). -/
def T (c : Dev nD) (r o k : ℕ) : EReal :=
  if h : r < 8192 ∧ o < 11008 ∧ k < 4096 then
    aX m c (ix2 ⟨r, h.1⟩ ⟨k, h.2.2⟩) * (aW m c (ix2 ⟨o, h.2.1⟩ 0) * (ofInt (aQ m c (ix2 ⟨o, h.2.1⟩ ⟨k, h.2.2⟩)) - ofInt (aZ m c (ix2 ⟨o, h.2.1⟩ 0))))
  else 0

/-- The bias at output column `o`. -/
def biasAt (c : Dev nD) (o : ℕ) : EReal :=
  if h : o < 11008 then aS m c (ix2 0 0) * ofInt (aB m c (ix2 0 ⟨o, h⟩)) else 0

/-- The output array [8192, 11008] the run ends with. -/
def G6 (c : Dev nD) : S8192x11008.Idx → EReal :=
  fun i => blockAcc (T m c (i 0).val (i 1).val) 8 + biasAt m c (i 1).val

/-- What the accumulator holds after the body at the point numbered `n`, on the columns inside the array. -/
def AccOK (c : Dev nD) (n : ℕ) (X : Vec Ideal S1024x1024 .f32) : Prop :=
  ∀ p q : Fin 1024, ((n / 8) % 11) * 1024 + q.val < 11008 →
    X (ix2 p q) = blockAcc (T m c ((n / 88) * 1024 + p.val) (((n / 8) % 11) * 1024 + q.val)) (n % 8 + 1)

/-! ## The accumulator as a buffer, and the invariant carried between points -/

abbrev accM : Memref sig .tc .vmem S1024x1024 .f32 := Memref.whole cc0_scratch0

theorem PhiA_eq (c : Dev nD) :
    (Pipeline.ΦA spec0 c : sProp (MT nD τ sig Unit (Elt Ideal) ℕ (UR sig nD τ) ℕ))
      = iprop(iprop((∃ d, owns (c : Thread nD τ) accM fullShare d)) ∗ (∃ r, prngReg c r)) := by
  unfold Pipeline.ΦA; rw [scopedRest0_eq]; simp only [accM, owns_whole]; try rfl

/-- Before the first point the accumulator holds anything; after point `n` it holds contents with `AccOK`. -/
def PhiS (c : Dev nD) : (n : ℕ) → n ≤ cfg0.N → sProp (MT nD τ sig Unit (Elt Ideal) ℕ (UR sig nD τ) ℕ)
  | 0, _ => Pipeline.ΦA spec0 c
  | n + 1, _ => iprop(iprop((∃ X, ⌜AccOK m c n X⌝ ∗ owns (c : Thread nD τ) accM fullShare X)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop((∃ X, ⌜AccOK m c n X⌝ ∗ owns (c : Thread nD τ) accM fullShare X)) ∗ (∃ r, prngReg c r)) := rfl
theorem PhiS_pos (c : Dev nD) (n : ℕ) (h : n ≤ cfg0.N) (hz : n ≠ 0) :
    PhiS m c n h = iprop(iprop((∃ X, ⌜AccOK m c (n - 1) X⌝ ∗ owns (c : Thread nD τ) accM fullShare X)) ∗ (∃ r, prngReg c r)) := by
  cases n with
  | zero => exact absurd rfl hz
  | succ n => rfl

/-! ## The proof data -/

/-- The proof data of the one pipeline on core `c`: the arrays as the region finds them; after the body at point
    `t` the two tiling inputs' buffers at their blocks, each clipped input's at its block in array coordinates,
    the output's, at a point that writes it back, at the output array's block (zeros past the array's end); the
    invariant `PhiS`; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => arrBlock (cfg := cfg0) (c := c) 1 (V m c (Pipeline.arrRef spec0 1)) t
    | ⟨2, _⟩ => arrBlock (cfg := cfg0) (c := c) 2 (V m c (Pipeline.arrRef spec0 2)) t
    | ⟨3, _⟩ => arrBlock (cfg := cfg0) (c := c) 3 (V m c (Pipeline.arrRef spec0 3)) t
    | ⟨4, _⟩ => arrBlock (cfg := cfg0) (c := c) 4 (V m c (Pipeline.arrRef spec0 4)) t
    | ⟨5, _⟩ => iblk m c 5 t
    | ⟨6, _⟩ => (cfg0.win 6).fill (grid0.coords t) (fun _ => (0 : EReal)) (((cfg0.win 6).blk t).view.read (Elt Ideal) (G6 m c))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after5 (c : Dev nD) (t : Fin cfg0.N) : (dats m 0 c).after 5 t = iblk m c 5 t := by dsimp only [dats]
theorem after1 (c : Dev nD) (t : Fin cfg0.N) : (dats m 0 c).after 1 t = arrBlock 1 ((dats m 0 c).A 1) t := by dsimp only [dats]
theorem after2 (c : Dev nD) (t : Fin cfg0.N) : (dats m 0 c).after 2 t = arrBlock 2 ((dats m 0 c).A 2) t := by dsimp only [dats]
theorem after3 (c : Dev nD) (t : Fin cfg0.N) : (dats m 0 c).after 3 t = arrBlock 3 ((dats m 0 c).A 3) t := by dsimp only [dats]
theorem after4 (c : Dev nD) (t : Fin cfg0.N) : (dats m 0 c).after 4 t = arrBlock 4 ((dats m 0 c).A 4) t := by dsimp only [dats]
theorem after6 (c : Dev nD) (t : Fin cfg0.N) : (dats m 0 c).after 6 t
    = (cfg0.win 6).fill (grid0.coords t) (fun _ => (0 : EReal)) (((cfg0.win 6).blk t).view.read (Elt Ideal) (G6 m c)) := by
  dsimp only [dats]

/-- The two tiling inputs' buffers hold their blocks at every point. -/
theorem before0 (c : Dev nD) (t : Fin cfg0.N) (d) : (dats m 0 c).before 0 t d = iblk m c 0 t :=
  before0_0_of m (dats m 0 c) (A_eq m c 0) (after0 m c) t d
theorem before5 (c : Dev nD) (t : Fin cfg0.N) (d) : (dats m 0 c).before 5 t d = iblk m c 5 t :=
  before0_5_of m (dats m 0 c) (A_eq m c 5) (after5 m c) t d

end Cert.KernelIdeal.Hand

end
-- ==== Proof.LibColBroadcast.lean ====
/-
  One column broadcast over many: a `[a, 1]` array broadcast to `[a, b]` reads, at `(p, c)`, the operand's row `p`.
-/
import Idealize.ShloMosaic.Lib.ValueIdx
import Idealize.ShloMosaic.Lib.Pipeline.Value

noncomputable section

namespace Cert.LibColBroadcast

open Idealize.ShloMosaic Idealize.ShloMosaic.ValueIdx

variable {α : Type}

/-- A `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibDotForms.lean ====
/-
  Two matrix products of a kernel read entry by entry over the extended reals, whatever precision the product asks for.

  Over the extended reals a product's precision attribute changes nothing. For a left operand [M, K]:
    * against a right operand [K, N] contracted on its first axis, entry (p, q) of the product accumulated into the
      zero splat is the sum over k of x[p, k] · w[k, q]                                   (`matmul_plain_prec`);
    * against a right operand [N, K] contracted on its last axis (a product with the transpose, no transpose
      materialised), entry (p, q) is the sum over k of x[p, k] · w[q, k]                   (`matmul_transposed_prec`).
  Only `0 + s = s` and a re-indexing of the sum are used: nothing here needs finiteness.
-/
import Idealize.ShloMosaic.Lib.ValueIdx
import Idealize.ShloMosaic.PureOps.Ideal.Laws
import proofs.«153634_j74594991997150_1_alg».proof.Proof.LibDotRows

noncomputable section

namespace Cert.LibDotForms

open Idealize.ShloMosaic Idealize.ShloMosaic.ValueIdx

variable {M K N : Nat} {φ₁ φ₂ : FTy}

/-- Entry (p, q) of a kernel's product x · w into the zero splat, at any precision. -/
theorem matmul_plain_prec (prec : Option ContractPrecision) (x : FVec Ideal ⟨2, ![M, K]⟩ φ₁) (w : FVec Ideal ⟨2, ![K, N]⟩ φ₂)
    (p : Fin M) (q : Fin N) :
    matmul (F := Ideal) (DotDims.plain M K N) prec x w (constant ⟨2, ![M, N]⟩ .f32 0x00000000#32) (ix2 p q)
      = ∑ k : Fin K, x (ix2 p k) * w (ix2 k q) :=
  Cert.Lib.DotRows.matmul_plain_apply x w p q

/-- With the right operand contracted on its last axis, the left operand's index at (p, q) and position k is (p, k). -/
theorem transposed_lhsIdx (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a; apply Fin.ext
  match a with
  | ⟨0, _⟩ => rfl
  | ⟨1, _⟩ => exact ((DotDims.transposedRhs M K N).lhsIdx_val_of_single rfl _ _).trans hk

/-- … and the right operand's index is (q, k). -/
theorem transposed_rhsIdx (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a; apply Fin.ext
  match a with
  | ⟨0, _⟩ => rfl
  | ⟨1, _⟩ => exact ((DotDims.transposedRhs M K N).rhsIdx_val_of_single rfl _ _).trans hk

/-- Entry (p, q) of a kernel's product of x with the transpose of w, into the zero splat, at any precision. -/
theorem matmul_transposed_prec (prec : Option ContractPrecision) (x : FVec Ideal ⟨2, ![M, K]⟩ φ₁) (w : FVec Ideal ⟨2, ![N, K]⟩ φ₂)
    (p : Fin M) (q : Fin N) :
    matmul (F := Ideal) (DotDims.transposedRhs M K N) prec x w (constant ⟨2, ![M, N]⟩ .f32 0x00000000#32) (ix2 p q)
      = ∑ k : Fin K, x (ix2 p k) * w (ix2 q k) := by
  simp only [matmul]
  rw [Ideal.matmul_constant_zero_apply, ← Equiv.sum_comp (contrEquiv1 (DotDims.transposedRhs M K N) K rfl rfl).symm]
  exact Finset.sum_congr rfl fun k _ => by rw [transposed_lhsIdx, transposed_rhsIdx]

end Cert.LibDotForms

end
-- ==== Proof.PayIdeal.lean ====
/-
  The three arrays the kernel body stores, read entry by entry over the extended reals.

  Over the extended reals every float operation is exact, a change of float format is the identity, and an
  integer word converted to a float is the real number it denotes, read signed. A shape cast to the same shape
  moves nothing. So, with p a row and q a column of the 1024 × 1024 result block:

    * the first stored array is the zero splat: every entry is 0;

    * the second is the accumulator plus one block of the contraction. The product contracts the LAST axis of
      both of its operands (a product with the transpose, no transpose materialised), so the right operand is
      read at (q, k). With x the block of activations, w the block of integer weights, z the column of integer
      zero points and s the column of scales, its entry (p, q) is

          acc[p, q] + Σ_{k < 512} x[p, k] · (s[q] · (w[q, k] − z[q])),

      the two columns [1024, 1] having been broadcast along the contraction axis;

    * the third is the accumulator plus the bias row on every row: with c the one entry of the [1, 1] bias scale
      and b the row of integer biases, its entry (p, q) is

          acc[p, q] + c · b[q].

  Nothing here needs any input to be finite: each step is an unfolding, a re-indexing, or 0 + t = t.
-/
import proofs.«153634_j74594991997150_1_alg».proof.Proof.Gen.KernelIdeal.Skeleton
import proofs.«153634_j74594991997150_1_alg».proof.Proof.Spec
import proofs.«153634_j74594991997150_1_alg».proof.Proof.LibColBroadcast
import proofs.«153634_j74594991997150_1_alg».proof.Proof.LibDotForms
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-! ## The non-pointwise operations, one lemma each -/

/-- A [1024, 1] column broadcast along the contraction axis reads, at (q, k), the column's entry q. -/
theorem col_apply {α : Type} (v : S1024x1.Idx → α) (q : Fin 1024) (kk : Fin 512) :
    broadcastTo S1024x512 v broadcasts_S1024x1_S1024x512 (ix2 q kk) = v (ix2 q (0 : Fin 1)) :=
  Cert.LibColBroadcast.broadcastTo_a1_ab_apply v broadcasts_S1024x1_S1024x512 q kk

/-- The [1, 1024] row broadcast to every row reads, at (p, q), the row's entry q. -/
theorem row_apply {α : Type} (v : S1x1024.Idx → α) (p q : Fin 1024) :
    broadcastTo S1024x1024 v broadcasts_S1x1024_S1024x1024 (ix2 p q) = v (ix2 (0 : Fin 1) q) :=
  broadcastTo_1b_ab_apply v broadcasts_S1x1024_S1024x1024 p q

/-- The one entry extracted from a [1, 1] array is its entry (0, 0). -/
theorem extract_apply {α : Type} (v : S1x1.Idx → α) :
    extractAt ![0, 0] v inpos_S1x1_p0_0 = v (ix2 (0 : Fin 1) (0 : Fin 1)) :=
  congrArg v (funext fun a => Fin.ext (by
    match a with
    | ⟨0, _⟩ => rfl
    | ⟨1, _⟩ => rfl))

/-- The kernel's product contracts the last axis of both operands: into the zero splat, entry (p, q) is the sum
    over k of a[p, k] · b[q, k]. -/
theorem matmul_apply (a b : FVec Ideal S1024x512 .bf16) (p q : Fin 1024) :
    matmul (F := Ideal) dot_S1024x512_S1024x512_S1024x1024_1_1_0_0_n_n none a b
        (constant (F := Ideal) S1024x1024 .f32 0x00000000#32) (ix2 p q)
      = ∑ kk : Fin 512, a (ix2 p kk) * b (ix2 q kk) :=
  Cert.LibDotForms.matmul_transposed_prec (M := 1024) (K := 512) (N := 1024) none a b p q

/-! ## The three stored arrays -/

/-- The first stored array is zero everywhere. -/
theorem pay1_apply (j : S1024x1024.Idx) : k0_pay1 (F := Ideal) j = 0 := by
  unfold k0_pay1
  refine (congrFun (shapeCast_self _ _) j).trans ?_
  exact Ideal.ofBits_zero_f32

/-- The dequantized weight the product reads at (q, k): scale · (weight − zero point), the integers read as reals. -/
theorem wdeq_apply (x1 : Vec Ideal S1024x512 .i32) (x3 : Vec Ideal S1024x1 .i32) (x2 : Vec Ideal S1024x1 .f32)
    (q : Fin 1024) (kk : Fin 512) :
    (mulf (broadcastTo S1024x512 (shapeCast S1024x1 x2 shapeCasts_S1024x1_S1024x1) broadcasts_S1024x1_S1024x512)
        (subf (sitofp .f32 x1)
          (broadcastTo S1024x512 (sitofp .f32 (shapeCast S1024x1 x3 shapeCasts_S1024x1_S1024x1)) broadcasts_S1024x1_S1024x512))
      : FVec Ideal S1024x512 .f32) (ix2 q kk)
      = x2 (ix2 q (0 : Fin 1)) * (Cert.QLinear.ofInt (x1 (ix2 q kk)) - Cert.QLinear.ofInt (x3 (ix2 q (0 : Fin 1)))) := by
  refine congrArg₂ (· * ·) ?_ (congrArg (Cert.QLinear.ofInt (x1 (ix2 q kk)) - ·) ?_)
  · exact (col_apply _ q kk).trans (congrFun (shapeCast_self x2 _) _)
  · exact (col_apply _ q kk).trans (congrArg Cert.QLinear.ofInt (congrFun (shapeCast_self x3 _) _))

/-- The second stored array at (p, q): the accumulator's entry plus the block's contraction. -/
theorem pay2_apply (x0 : Vec Ideal S1024x512 .f32) (x1 : Vec Ideal S1024x512 .i32) (x3 : Vec Ideal S1024x1 .i32)
    (x2 : Vec Ideal S1024x1 .f32) (xs : Vec Ideal S1024x1024 .f32) (p q : Fin 1024) :
    k0_pay2 (F := Ideal) x0 x1 x3 x2 xs (ix2 p q)
      = xs (ix2 p q) + ∑ kk : Fin 512, x0 (ix2 p kk)
          * (x2 (ix2 q (0 : Fin 1)) * (Cert.QLinear.ofInt (x1 (ix2 q kk)) - Cert.QLinear.ofInt (x3 (ix2 q (0 : Fin 1))))) := by
  unfold k0_pay2
  refine (congrFun (shapeCast_self _ _) (ix2 p q)).trans ?_
  refine congrArg (xs (ix2 p q) + ·) ?_
  refine (matmul_apply _ _ p q).trans ?_
  refine Finset.sum_congr rfl fun kk _ => ?_
  refine congrArg₂ (· * ·) ?_ ?_
  · exact congrFun (shapeCast_self x0 _) (ix2 p kk)
  · exact wdeq_apply x1 x3 x2 q kk

/-- The third stored array at (p, q): the accumulator's entry plus the bias scale times the integer bias. -/
theorem pay3_apply (x5 : Vec Ideal S1x1 .f32) (x4 : Vec Ideal S1x1024 .i32) (X : Vec Ideal S1024x1024 .f32)
    (p q : Fin 1024) :
    k0_pay3 (F := Ideal) x5 x4 X (ix2 p q)
      = X (ix2 p q) + x5 (ix2 (0 : Fin 1) (0 : Fin 1)) * Cert.QLinear.ofInt (x4 (ix2 (0 : Fin 1) q)) := by
  unfold k0_pay3
  refine congrArg (X (ix2 p q) + ·) ?_
  refine (row_apply _ p q).trans ?_
  refine congrArg₂ (· * ·) (extract_apply x5) ?_
  exact congrArg Cert.QLinear.ofInt (congrFun (shapeCast_self x4 _) _)

end Cert.KernelIdeal.Hand

end
-- ==== Proof.IdealVals.lean ====
/-
  What the body reads, in array coordinates, and one accumulation step.

  At point t = (i, j, k) the x buffer holds X[i·1024 + p, k·512 + kk] at (p, kk); the weight buffer holds
  Q[j·1024 + q, k·512 + kk] at (q, kk), the scale and zero-point buffers W[j·1024 + q, 0] and Z[j·1024 + q, 0]
  at (q, 0), the bias buffer B[0, j·1024 + q] at (0, q), whenever column j·1024 + q lies inside the array
  (rows q past the array's end hold words nothing names); the bias-scale buffer holds S[0, 0]. So on the columns
  inside the array one step of the body adds exactly the block sum of the terms T, and the last step's output is
  the full sum plus the bias.
-/
import proofs.«153634_j74594991997150_1_alg».proof.Proof.Gen.KernelIdeal.Launch
import proofs.«153634_j74594991997150_1_alg».proof.Proof.Gen.KernelIdeal.Skeleton
import proofs.«153634_j74594991997150_1_alg».proof.Proof.Gen.KernelIdeal.Points
import proofs.«153634_j74594991997150_1_alg».proof.Proof.Gen.KernelIdeal.Frame
import proofs.«153634_j74594991997150_1_alg».proof.Proof.IdealData
import proofs.«153634_j74594991997150_1_alg».proof.Proof.PayIdeal
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.QLinear

variable {F : FTy → Type} [FloatOps F]

local notation "𝕄" => MT nD τ sig Unit (Elt F) ℕ (UR sig nD τ) ℕ
open Idealize.ShloMosaic.Pipeline.ClipIn (arrBlock)

variable (m : (ℓ : Loc nD τ sig) → Buf (Elt Ideal) ℓ)

/-! ## The block indices in closed form (grid (8, 11, 8), k innermost) -/

theorem idx0 : ∀ t : Fin cfg0.N, (cfg0.win 0).index t (0 : Fin 2) = t.val / 88 ∧ (cfg0.win 0).index t (1 : Fin 2) = t.val % 8 :=
  (by decide +kernel : ∀ t : Fin grid0.N, win0_0.index t (0 : Fin 2) = t.val / 88 ∧ win0_0.index t (1 : Fin 2) = t.val % 8)
theorem idx1 : ∀ t : Fin cfg0.N, (cfg0.win 1).index t (0 : Fin 2) = (t.val / 8) % 11 ∧ (cfg0.win 1).index t (1 : Fin 2) = t.val % 8 :=
  (by decide +kernel : ∀ t : Fin grid0.N, win0_1.index t (0 : Fin 2) = (t.val / 8) % 11 ∧ win0_1.index t (1 : Fin 2) = t.val % 8)
theorem idx2 : ∀ t : Fin cfg0.N, (cfg0.win 2).index t (0 : Fin 2) = (t.val / 8) % 11 ∧ (cfg0.win 2).index t (1 : Fin 2) = 0 :=
  (by decide +kernel : ∀ t : Fin grid0.N, win0_2.index t (0 : Fin 2) = (t.val / 8) % 11 ∧ win0_2.index t (1 : Fin 2) = 0)
theorem idx3 : ∀ t : Fin cfg0.N, (cfg0.win 3).index t (0 : Fin 2) = (t.val / 8) % 11 ∧ (cfg0.win 3).index t (1 : Fin 2) = 0 :=
  (by decide +kernel : ∀ t : Fin grid0.N, win0_3.index t (0 : Fin 2) = (t.val / 8) % 11 ∧ win0_3.index t (1 : Fin 2) = 0)
theorem idx4 : ∀ t : Fin cfg0.N, (cfg0.win 4).index t (0 : Fin 2) = 0 ∧ (cfg0.win 4).index t (1 : Fin 2) = (t.val / 8) % 11 :=
  (by decide +kernel : ∀ t : Fin grid0.N, win0_4.index t (0 : Fin 2) = 0 ∧ win0_4.index t (1 : Fin 2) = (t.val / 8) % 11)
theorem idx5 : ∀ t : Fin cfg0.N, (cfg0.win 5).index t (0 : Fin 2) = 0 ∧ (cfg0.win 5).index t (1 : Fin 2) = 0 :=
  (by decide +kernel : ∀ t : Fin grid0.N, win0_5.index t (0 : Fin 2) = 0 ∧ win0_5.index t (1 : Fin 2) = 0)

theorem tlt (t : Fin cfg0.N) : t.val < 704 := lt_of_lt_of_eq t.isLt (show cfg0.N = 704 from N_0)

/-- A block's coordinate in its array is index × size + the coordinate inside the block. -/
theorem emb_val0 (t : Fin cfg0.N) (y : ((cfg0.win 0).xblock (grid0.coords t)).Idx) (a : Fin 2) :
    ((((cfg0.win 0).blk t).view.emb y) a).val = (cfg0.win 0).index t a * (cfg0.win 0).size a + (y a).val := by
  show (cfg0.win 0).index t a * (cfg0.win 0).size a + 1 * (y a).val = _
  omega
theorem emb_val5 (t : Fin cfg0.N) (y : ((cfg0.win 5).xblock (grid0.coords t)).Idx) (a : Fin 2) :
    ((((cfg0.win 5).blk t).view.emb y) a).val = (cfg0.win 5).index t a * (cfg0.win 5).size a + (y a).val := by
  show (cfg0.win 5).index t a * (cfg0.win 5).size a + 1 * (y a).val = _
  omega

/-! ## The buffers' entries as the arrays' -/

theorem in0 (c : Dev nD) (t : Fin cfg0.N) (p : Fin 1024) (kk : Fin 512)
    (hr : (t.val / 88) * 1024 + p.val < 8192) (hk : (t.val % 8) * 512 + kk.val < 4096) :
    iblk m c 0 t (ix2 p kk) = aX m c (ix2 ⟨(t.val / 88) * 1024 + p.val, hr⟩ ⟨(t.val % 8) * 512 + kk.val, hk⟩) := by
  show (V m c main_v0 : S8192x4096.Idx → EReal) (((cfg0.win 0).blk t).view.emb (ix2 p kk)) = _
  refine congrArg (aX m c) (funext fun a => Fin.ext ?_)
  match a with
  | ⟨0, _⟩ => exact (emb_val0 t (ix2 p kk) _).trans (by show (cfg0.win 0).index t (0 : Fin 2) * 1024 + p.val = _; rw [(idx0 t).1])
  | ⟨1, _⟩ => exact (emb_val0 t (ix2 p kk) _).trans (by show (cfg0.win 0).index t (1 : Fin 2) * 512 + kk.val = _; rw [(idx0 t).2])

theorem in5 (c : Dev nD) (t : Fin cfg0.N) :
    iblk m c 5 t (ix2 (0 : Fin 1) (0 : Fin 1)) = aS m c (ix2 (0 : Fin 1) (0 : Fin 1)) := by
  show (V m c main_v4 : S1x1.Idx → EReal) (((cfg0.win 5).blk t).view.emb (ix2 (0 : Fin 1) (0 : Fin 1))) = _
  refine congrArg (aS m c) (funext fun a => Fin.ext ?_)
  match a with
  | ⟨0, _⟩ => exact (emb_val5 t (ix2 (0 : Fin 1) (0 : Fin 1)) _).trans (by show (cfg0.win 5).index t (0 : Fin 2) * 1 + 0 = 0; rw [(idx5 t).1])
  | ⟨1, _⟩ => exact (emb_val5 t (ix2 (0 : Fin 1) (0 : Fin 1)) _).trans (by show (cfg0.win 5).index t (1 : Fin 2) * 1 + 0 = 0; rw [(idx5 t).2])

theorem in1 (c : Dev nD) (t : Fin cfg0.N) (d) (q : Fin 1024) (kk : Fin 512)
    (hq : ((t.val / 8) % 11) * 1024 + q.val < 11008) (hk : (t.val % 8) * 512 + kk.val < 4096) :
    (dats m 0 c).before 1 t d (ix2 q kk) = aQ m c (ix2 ⟨((t.val / 8) % 11) * 1024 + q.val, hq⟩ ⟨(t.val % 8) * 512 + kk.val, hk⟩) := by
  have h : ∀ a, (cfg0.win 1).index t a * (cfg0.win 1).size a + ((ix2 q kk : S1024x512.Idx) a).val < (cfg0.win 1).shape.size a := fun a =>
    match a with
    | ⟨0, _⟩ => by show (cfg0.win 1).index t (0 : Fin 2) * 1024 + q.val < 11008; rw [(idx1 t).1]; exact hq
    | ⟨1, _⟩ => by show (cfg0.win 1).index t (1 : Fin 2) * 512 + kk.val < 4096; rw [(idx1 t).2]; exact hk
  rw [Pipeline.ClipIn.before_apply (dats m 0 c) 1 rfl (fun _ => rfl) (after1 m c) t d (ix2 q kk) h]
  show (V m c main_arg1 : S11008x4096.Idx → BitVec 32) _ = _
  refine congrArg (aQ m c) (funext fun a => Fin.ext ?_)
  match a with
  | ⟨0, _⟩ => show (cfg0.win 1).index t (0 : Fin 2) * 1024 + q.val = _; rw [(idx1 t).1]
  | ⟨1, _⟩ => show (cfg0.win 1).index t (1 : Fin 2) * 512 + kk.val = _; rw [(idx1 t).2]

theorem in2 (c : Dev nD) (t : Fin cfg0.N) (d) (q : Fin 1024) (hq : ((t.val / 8) % 11) * 1024 + q.val < 11008) :
    (dats m 0 c).before 2 t d (ix2 q (0 : Fin 1)) = aW m c (ix2 ⟨((t.val / 8) % 11) * 1024 + q.val, hq⟩ (0 : Fin 1)) := by
  have h : ∀ a, (cfg0.win 2).index t a * (cfg0.win 2).size a + ((ix2 q (0 : Fin 1) : S1024x1.Idx) a).val < (cfg0.win 2).shape.size a := fun a =>
    match a with
    | ⟨0, _⟩ => by show (cfg0.win 2).index t (0 : Fin 2) * 1024 + q.val < 11008; rw [(idx2 t).1]; exact hq
    | ⟨1, _⟩ => by show (cfg0.win 2).index t (1 : Fin 2) * 1 + 0 < 1; rw [(idx2 t).2]; omega
  rw [Pipeline.ClipIn.before_apply (dats m 0 c) 2 rfl (fun _ => rfl) (after2 m c) t d (ix2 q (0 : Fin 1)) h]
  show (V m c main_v1 : S11008x1.Idx → EReal) _ = _
  refine congrArg (aW m c) (funext fun a => Fin.ext ?_)
  match a with
  | ⟨0, _⟩ => show (cfg0.win 2).index t (0 : Fin 2) * 1024 + q.val = _; rw [(idx2 t).1]
  | ⟨1, _⟩ => show (cfg0.win 2).index t (1 : Fin 2) * 1 + 0 = 0; rw [(idx2 t).2]

theorem in3 (c : Dev nD) (t : Fin cfg0.N) (d) (q : Fin 1024) (hq : ((t.val / 8) % 11) * 1024 + q.val < 11008) :
    (dats m 0 c).before 3 t d (ix2 q (0 : Fin 1)) = aZ m c (ix2 ⟨((t.val / 8) % 11) * 1024 + q.val, hq⟩ (0 : Fin 1)) := by
  have h : ∀ a, (cfg0.win 3).index t a * (cfg0.win 3).size a + ((ix2 q (0 : Fin 1) : S1024x1.Idx) a).val < (cfg0.win 3).shape.size a := fun a =>
    match a with
    | ⟨0, _⟩ => by show (cfg0.win 3).index t (0 : Fin 2) * 1024 + q.val < 11008; rw [(idx3 t).1]; exact hq
    | ⟨1, _⟩ => by show (cfg0.win 3).index t (1 : Fin 2) * 1 + 0 < 1; rw [(idx3 t).2]; omega
  rw [Pipeline.ClipIn.before_apply (dats m 0 c) 3 rfl (fun _ => rfl) (after3 m c) t d (ix2 q (0 : Fin 1)) h]
  show (V m c main_v2 : S11008x1.Idx → BitVec 32) _ = _
  refine congrArg (aZ m c) (funext fun a => Fin.ext ?_)
  match a with
  | ⟨0, _⟩ => show (cfg0.win 3).index t (0 : Fin 2) * 1024 + q.val = _; rw [(idx3 t).1]
  | ⟨1, _⟩ => show (cfg0.win 3).index t (1 : Fin 2) * 1 + 0 = 0; rw [(idx3 t).2]

theorem in4 (c : Dev nD) (t : Fin cfg0.N) (d) (q : Fin 1024) (hq : ((t.val / 8) % 11) * 1024 + q.val < 11008) :
    (dats m 0 c).before 4 t d (ix2 (0 : Fin 1) q) = aB m c (ix2 (0 : Fin 1) ⟨((t.val / 8) % 11) * 1024 + q.val, hq⟩) := by
  have h : ∀ a, (cfg0.win 4).index t a * (cfg0.win 4).size a + ((ix2 (0 : Fin 1) q : S1x1024.Idx) a).val < (cfg0.win 4).shape.size a := fun a =>
    match a with
    | ⟨0, _⟩ => by show (cfg0.win 4).index t (0 : Fin 2) * 1 + 0 < 1; rw [(idx4 t).1]; omega
    | ⟨1, _⟩ => by show (cfg0.win 4).index t (1 : Fin 2) * 1024 + q.val < 11008; rw [(idx4 t).2]; exact hq
  rw [Pipeline.ClipIn.before_apply (dats m 0 c) 4 rfl (fun _ => rfl) (after4 m c) t d (ix2 (0 : Fin 1) q) h]
  show (V m c main_v3 : S1x11008.Idx → BitVec 32) _ = _
  refine congrArg (aB m c) (funext fun a => Fin.ext ?_)
  match a with
  | ⟨0, _⟩ => show (cfg0.win 4).index t (0 : Fin 2) * 1 + 0 = 0; rw [(idx4 t).1]
  | ⟨1, _⟩ => show (cfg0.win 4).index t (1 : Fin 2) * 1024 + q.val = _; rw [(idx4 t).2]

end Cert.KernelIdeal.Hand

end
-- ==== Proof.IdealBody.lean ====
/-
  The idealized kernel's body obligation with every value named, its run, and the array it ends with.

  One step: with the accumulator holding, on the columns inside the array, the sum of the terms T over the first k
  blocks, the body's store leaves the sum over the first k + 1 blocks there: the product read at an entry is the
  sum over the block's 512 positions of x · (scale · (q − zero point)), and each factor is the array's entry.
  Columns past the array's end depend on words nothing names and nothing is said of them. At k = 7 the output
  buffer receives the finished sum plus the bias, which on the part of the block inside the array is the output
  array G6 read through the block. The write-backs of the points k = 7 cover the array, so it ends at G6.
-/
import proofs.«153634_j74594991997150_1_alg».proof.Proof.Gen.KernelIdeal.Launch
import proofs.«153634_j74594991997150_1_alg».proof.Proof.Gen.KernelIdeal.Skeleton
import proofs.«153634_j74594991997150_1_alg».proof.Proof.Gen.KernelIdeal.Points
import proofs.«153634_j74594991997150_1_alg».proof.Proof.Gen.KernelIdeal.Frame
import proofs.«153634_j74594991997150_1_alg».proof.Proof.IdealVals
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.QLinear

variable {F : FTy → Type} [FloatOps F]

local notation "𝕄" => MT nD τ sig Unit (Elt F) ℕ (UR sig nD τ) ℕ
open Idealize.ShloMosaic.Pipeline (BodyObligationLoose)

variable (m : (ℓ : Loc nD τ sig) → Buf (Elt Ideal) ℓ) (ρ : Dev nD → PrngReg)

local notation "𝕀" => MT nD τ sig Unit (Elt Ideal) ℕ (UR sig nD τ) ℕ

/-! ## One step of the accumulation, and the last step's output -/

/-- The product term the body forms at (p, q, kk), on a column inside the array, is the term T there: each factor
    is the array's entry (stated over buffers of the blocks' shapes holding those entries). -/
theorem prodT (c : Dev nD) (t : Fin cfg0.N) (B0 : Vec Ideal S1024x512 .f32) (B1 : Vec Ideal S1024x512 .i32)
    (B2 : Vec Ideal S1024x1 .f32) (B3 : Vec Ideal S1024x1 .i32) (p q : Fin 1024) (kk : Fin 512)
    (hr : (t.val / 88) * 1024 + p.val < 8192) (hq : ((t.val / 8) % 11) * 1024 + q.val < 11008)
    (hk : (t.val % 8) * 512 + kk.val < 4096)
    (e0 : B0 (ix2 p kk) = aX m c (ix2 ⟨(t.val / 88) * 1024 + p.val, hr⟩ ⟨(t.val % 8) * 512 + kk.val, hk⟩))
    (e1 : B1 (ix2 q kk) = aQ m c (ix2 ⟨((t.val / 8) % 11) * 1024 + q.val, hq⟩ ⟨(t.val % 8) * 512 + kk.val, hk⟩))
    (e2 : B2 (ix2 q (0 : Fin 1)) = aW m c (ix2 ⟨((t.val / 8) % 11) * 1024 + q.val, hq⟩ (0 : Fin 1)))
    (e3 : B3 (ix2 q (0 : Fin 1)) = aZ m c (ix2 ⟨((t.val / 8) % 11) * 1024 + q.val, hq⟩ (0 : Fin 1))) :
    B0 (ix2 p kk) * (B2 (ix2 q (0 : Fin 1)) * (ofInt (B1 (ix2 q kk)) - ofInt (B3 (ix2 q (0 : Fin 1)))))
      = T m c ((t.val / 88) * 1024 + p.val) (((t.val / 8) % 11) * 1024 + q.val) ((t.val % 8) * 512 + kk.val) := by
  rw [e0, e1, e2, e3]
  unfold T; rw [dif_pos ⟨hr, hq, hk⟩]

/-- One step: from the sum over the first k blocks to the sum over the first k + 1. -/
theorem acc_step (c : Dev nD) (t : Fin cfg0.N) (d1 d2 d3) (X : Vec Ideal S1024x1024 .f32)
    (hX : ∀ p q : Fin 1024, ((t.val / 8) % 11) * 1024 + q.val < 11008 →
      X (ix2 p q) = blockAcc (T m c ((t.val / 88) * 1024 + p.val) (((t.val / 8) % 11) * 1024 + q.val)) (t.val % 8)) :
    AccOK m c t.val (k0_pay2 (F := Ideal) (iblk m c 0 t) ((dats m 0 c).before 1 t d1) ((dats m 0 c).before 3 t d3)
      ((dats m 0 c).before 2 t d2) X) := by
  intro p q hq
  have ht := tlt t
  have hp := p.isLt
  have hr : (t.val / 88) * 1024 + p.val < 8192 := by omega
  rw [pay2_apply, hX p q hq, blockAcc_succ]
  congr 1
  refine Finset.sum_congr rfl fun kk _ => ?_
  have hkk := kk.isLt
  have hk : (t.val % 8) * 512 + kk.val < 4096 := by omega
  exact prodT m c t (iblk m c 0 t) ((dats m 0 c).before 1 t d1) ((dats m 0 c).before 2 t d2) ((dats m 0 c).before 3 t d3)
    p q kk hr hq hk (in0 m c t p kk hr hk) (in1 m c t d1 q kk hq hk) (in2 m c t d2 q hq) (in3 m c t d3 q hq)

/-- At k = 0 the zero fill is the empty sum. -/
theorem acc_zero (c : Dev nD) (t : Fin cfg0.N) (h0 : t.val % 8 = 0) :
    ∀ p q : Fin 1024, ((t.val / 8) % 11) * 1024 + q.val < 11008 →
      k0_pay1 (F := Ideal) (ix2 p q) = blockAcc (T m c ((t.val / 88) * 1024 + p.val) (((t.val / 8) % 11) * 1024 + q.val)) (t.val % 8) := by
  intro p q _
  rw [pay1_apply, h0, blockAcc_zero]

/-- After a point that is not the first of its block of eight, the accumulator holds the sum over the first k blocks
    of the NEXT point's row and column: the next point has the same i and j. -/
theorem acc_prev (c : Dev nD) (t : Fin cfg0.N) (h0 : t.val % 8 ≠ 0) (X : Vec Ideal S1024x1024 .f32)
    (hX : AccOK m c (t.val - 1) X) :
    ∀ p q : Fin 1024, ((t.val / 8) % 11) * 1024 + q.val < 11008 →
      X (ix2 p q) = blockAcc (T m c ((t.val / 88) * 1024 + p.val) (((t.val / 8) % 11) * 1024 + q.val)) (t.val % 8) := by
  intro p q hq
  have e1 : (t.val - 1) / 88 = t.val / 88 := by omega
  have e2 : ((t.val - 1) / 8) % 11 = (t.val / 8) % 11 := by omega
  have e3 : (t.val - 1) % 8 + 1 = t.val % 8 := by omega
  have h := hX p q (by rw [e2]; exact hq)
  rw [e1, e2, e3] at h
  exact h

/-- The last step's output on the part of the block inside the array is the output array read through the block. -/
theorem out_ok (c : Dev nD) (t : Fin cfg0.N) (h7 : t.val % 8 = 7) (d4) (Xf : Vec Ideal S1024x1024 .f32)
    (hXf : AccOK m c t.val Xf) (y : ((cfg0.win 6).xblock (grid0.coords t)).Idx) :
    k0_pay3 (F := Ideal) (iblk m c 5 t) ((dats m 0 c).before 4 t d4) Xf ((cfg0.win 6).xinj (grid0.coords t) y)
      = G6 m c (((cfg0.win 6).blk t).view.emb y) := by
  have ht := tlt t
  have hy0 : (y (0 : Fin 2)).val < 1024 := lt_of_lt_of_eq (y (0 : Fin 2)).isLt (xsize6 t).1
  have hy1 : (y (1 : Fin 2)).val < (if (t.val / 8) % 11 = 10 then 768 else 1024) := lt_of_lt_of_eq (y (1 : Fin 2)).isLt (xsize6 t).2
  have hy1' : (y (1 : Fin 2)).val < 1024 := by split at hy1 <;> omega
  have hq : ((t.val / 8) % 11) * 1024 + (y (1 : Fin 2)).val < 11008 := by split at hy1 <;> omega
  have e : (cfg0.win 6).xinj (grid0.coords t) y = (ix2 (⟨(y (0 : Fin 2)).val, hy0⟩ : Fin 1024) (⟨(y (1 : Fin 2)).val, hy1'⟩ : Fin 1024) : S1024x1024.Idx) :=
    funext fun a => match a with
      | ⟨0, _⟩ => rfl
      | ⟨1, _⟩ => rfl
  rw [e, pay3_apply, hXf _ _ hq, h7, in5 m c t, in4 m c t d4 _ hq]
  unfold G6
  have e0 : ((((cfg0.win 6).blk t).view.emb y) (0 : Fin 2)).val = (t.val / 88) * 1024 + (y (0 : Fin 2)).val := by
    rw [emb6_val t y (0 : Fin 2), (index6 t).1]
  have e1 : ((((cfg0.win 6).blk t).view.emb y) (1 : Fin 2)).val = ((t.val / 8) % 11) * 1024 + (y (1 : Fin 2)).val := by
    rw [emb6_val t y (1 : Fin 2), (index6 t).2]
  rw [e0, e1]
  unfold biasAt; rw [dif_pos hq]

/-! ## The body at a generic point -/

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1024 .f32 := win0_6.stage (cfg0.slots t 6)
abbrev hs6 (t : Fin cfg0.N) : (ms6 t).IsWhole := hstage0_6 ((cfg0.slots t 6).cast nbuf0_6)

/-- The output window is idle exactly away from k = 7, and is written back exactly at k = 7. -/
theorem idle6 : ∀ t : Fin cfg0.N, cfg0.idle 6 (grid0.coords t) = true ↔ t.val % 8 ≠ 7 :=
  (by decide +kernel : ∀ t : Fin grid0.N, idle0 6 (grid0.coords t) = true ↔ t.val % 8 ≠ 7)

theorem leaves6_idle (c : Dev nD) (t : Fin cfg0.N) (h7 : t.val % 8 ≠ 7) :
    (dats m 0 c).leaves 6 t = iprop(∃ d, owns (c : Thread nD τ) (ms6 t) fullShare ((dats m 0 c).before 6 t d)) :=
  Dat.leaves_idle (dats m 0 c) 6 t ((idle6 t).mpr h7) (Bool.eq_false_iff.mpr fun hf => h7 ((flush0_6 t).mp hf))

theorem leaves6_live (c : Dev nD) (t : Fin cfg0.N) (h7 : t.val % 8 = 7) :
    (dats m 0 c).leaves 6 t = iprop(∃ d, owns (c : Thread nD τ) (ms6 t) fullShare
      ((cfg0.win 6).fill (grid0.coords t) d ((cfg0.win 6).cut (grid0.coords t) ((dats m 0 c).after 6 t)))) := by
  have hi : cfg0.idle 6 (grid0.coords t) = false := Bool.eq_false_iff.mpr fun h => (idle6 t).mp h h7
  unfold Dat.leaves; rw [hi]; rfl

/-- What the body is called with at point `t`. -/
def bodyPre (c : Dev nD) (t : Fin cfg0.N) : sProp 𝕀 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- And what it returns: the two tiling inputs' buffers at their blocks, each clipped input's at its block on the
    part inside the array, the output's as the window's state at the point asks. -/
def bodyPost (c : Dev nD) (t : Fin cfg0.N) : sProp 𝕀 :=
  iprop((dats m 0 c).Φ t.succ ∗ (dats m 0 c).owesAt () t.succ
    ∗ owns (c : Thread nD τ) (ms0 t) fullShare ((dats m 0 c).after 0 t)
    ∗ (∃ d, owns (c : Thread nD τ) (ms1 t) fullShare ((cfg0.win 1).fill (grid0.coords t) d ((cfg0.win 1).cut (grid0.coords t) ((dats m 0 c).after 1 t))))
    ∗ (∃ d, owns (c : Thread nD τ) (ms2 t) fullShare ((cfg0.win 2).fill (grid0.coords t) d ((cfg0.win 2).cut (grid0.coords t) ((dats m 0 c).after 2 t))))
    ∗ (∃ d, owns (c : Thread nD τ) (ms3 t) fullShare ((cfg0.win 3).fill (grid0.coords t) d ((cfg0.win 3).cut (grid0.coords t) ((dats m 0 c).after 3 t))))
    ∗ (∃ d, owns (c : Thread nD τ) (ms4 t) fullShare ((cfg0.win 4).fill (grid0.coords t) d ((cfg0.win 4).cut (grid0.coords t) ((dats m 0 c).after 4 t))))
    ∗ owns (c : Thread nD τ) (ms5 t) fullShare ((dats m 0 c).after 5 t)
    ∗ (dats m 0 c).leaves 6 t)

set_option maxHeartbeats 4000000 in
/-- The body at any point: in exactly one of the three cases; the case's triple runs on the buffers at what they
    hold; the accumulator comes back at the step's payload, which keeps the invariant; at k = 7 the output's buffer
    comes back at the output array's block on the part inside the array. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ, after0, after5]
  have ht := tlt t
  by_cases h0 : t.val % 8 = 0
  · by_cases h7 : t.val % 8 = 7
    · exfalso; omega
    · rw [leaves6_idle m c t h7]
      have hΦ : (dats m 0 c).Φ t.castSucc ⊢ (iprop(iprop((∃ d, owns (c : Thread nD τ) accM fullShare d)) ∗ (∃ r, prngReg c r)) : sProp 𝕀) := by
        rw [PhiS_castSucc m c t]
        by_cases hz : t.val = 0
        · rw [PhiS_zero m c _ _ hz, PhiA_eq]
        · rw [PhiS_pos m c _ _ hz]
          iintro ⟨⟨%X, -, HS⟩, Hg⟩
          isplitl [HS]; · iexists _; iexact HS
          iexact Hg
      iintro ⟨HΦ, Ho, ⟨%d0, H0⟩, ⟨%d1, H1⟩, ⟨%d2, H2⟩, ⟨%d3, H3⟩, ⟨%d4, H4⟩, ⟨%d5, H5⟩, ⟨%d6, H6⟩⟩
      ihave ⟨HS, Hg⟩ := hΦ $$ HΦ
      iapply ((runFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _)
        ((hcondFirst t).mpr h0) (fun h => h7 ((hcondLast t).mp h)) ((dats m 0 c).before 0 t d0) ((dats m 0 c).before 1 t d1) ((dats m 0 c).before 2 t d2) ((dats m 0 c).before 3 t d3) ((dats m 0 c).before 4 t d4) ((dats m 0 c).before 5 t d5)).property ((dats m 0 c).before 6 t d6) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%fs, HS⟩⟩
      isplitl [HS Hg]
      · isplitl [HS]
        · iexists (k0_pay2 (F := Ideal) ((dats m 0 c).before 0 t d0) ((dats m 0 c).before 1 t d1) ((dats m 0 c).before 3 t d3) ((dats m 0 c).before 2 t d2) (k0_pay1 (F := Ideal)))
          isplitr
          · ipureintro
            rw [before0 m c t d0]
            exact acc_step m c t d1 d2 d3 _ (acc_zero m c t h0)
          unfold owns; iexists _; isplitr
          swap; · iexact HS
          ipureintro; exact valFirst c _ _ _ _ _ _ _ _ _ _ _ _ _ _ _ _ _ _ _ _ _ _ _ _ _ _
        iexact Hg
      isplitl [Ho]; · iexact Ho
      isplitl [H0]; · rw [← before0 m c t d0]; iexact H0
      isplitl [H1]
      · iexists ((dats m 0 c).before 1 t d1)
        rw [← Pipeline.ClipIn.before_eq_fill (dats m 0 c) 1 rfl (fun _ => rfl) (after1 m c) t d1]; iexact H1
      isplitl [H2]
      · iexists ((dats m 0 c).before 2 t d2)
        rw [← Pipeline.ClipIn.before_eq_fill (dats m 0 c) 2 rfl (fun _ => rfl) (after2 m c) t d2]; iexact H2
      isplitl [H3]
      · iexists ((dats m 0 c).before 3 t d3)
        rw [← Pipeline.ClipIn.before_eq_fill (dats m 0 c) 3 rfl (fun _ => rfl) (after3 m c) t d3]; iexact H3
      isplitl [H4]
      · iexists ((dats m 0 c).before 4 t d4)
        rw [← Pipeline.ClipIn.before_eq_fill (dats m 0 c) 4 rfl (fun _ => rfl) (after4 m c) t d4]; iexact H4
      isplitl [H5]; · rw [← before5 m c t d5]; iexact H5
      iexists _; iexact H6
  · have hz : t.val ≠ 0 := fun h => h0 (by rw [h])
    by_cases h7 : t.val % 8 = 7
    · rw [leaves6_live m c t h7, PhiS_castSucc m c t, PhiS_pos m c _ _ hz]
      iintro ⟨⟨⟨%xs, %hxs, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _)
        (fun h => h0 ((hcondFirst t).mp h)) ((hcondLast t).mpr h7) ((dats m 0 c).before 0 t d0) ((dats m 0 c).before 1 t d1) ((dats m 0 c).before 2 t d2) ((dats m 0 c).before 3 t d3) ((dats m 0 c).before 4 t d4) ((dats m 0 c).before 5 t d5) xs).2.property Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%fo, H6⟩, ⟨%fs, HS⟩⟩
      have hstep : AccOK m c t.val (k0_pay2 (F := Ideal) ((dats m 0 c).before 0 t d0) ((dats m 0 c).before 1 t d1) ((dats m 0 c).before 3 t d3) ((dats m 0 c).before 2 t d2) xs) := by
        rw [before0 m c t d0]
        exact acc_step m c t d1 d2 d3 _ (acc_prev m c t h0 xs hxs)
      isplitl [HS Hg]
      · isplitl [HS]
        · iexists (k0_pay2 (F := Ideal) ((dats m 0 c).before 0 t d0) ((dats m 0 c).before 1 t d1) ((dats m 0 c).before 3 t d3) ((dats m 0 c).before 2 t d2) xs)
          isplitr
          · ipureintro; exact hstep
          unfold owns; iexists _; isplitr
          swap; · iexact HS
          ipureintro; exact valLastAcc c _ _ _ _ _ _ _ _ _ _ _ _ _ _ _ _ _ _ _ _ _ _ _ _ _ _ _
        iexact Hg
      isplitl [Ho]; · iexact Ho
      isplitl [H0]; · rw [← before0 m c t d0]; iexact H0
      isplitl [H1]
      · iexists ((dats m 0 c).before 1 t d1)
        rw [← Pipeline.ClipIn.before_eq_fill (dats m 0 c) 1 rfl (fun _ => rfl) (after1 m c) t d1]; iexact H1
      isplitl [H2]
      · iexists ((dats m 0 c).before 2 t d2)
        rw [← Pipeline.ClipIn.before_eq_fill (dats m 0 c) 2 rfl (fun _ => rfl) (after2 m c) t d2]; iexact H2
      isplitl [H3]
      · iexists ((dats m 0 c).before 3 t d3)
        rw [← Pipeline.ClipIn.before_eq_fill (dats m 0 c) 3 rfl (fun _ => rfl) (after3 m c) t d3]; iexact H3
      isplitl [H4]
      · iexists ((dats m 0 c).before 4 t d4)
        rw [← Pipeline.ClipIn.before_eq_fill (dats m 0 c) 4 rfl (fun _ => rfl) (after4 m c) t d4]; iexact H4
      isplitl [H5]; · rw [← before5 m c t d5]; iexact H5
      iexists (k0_pay3 (F := Ideal) ((dats m 0 c).before 5 t d5) ((dats m 0 c).before 4 t d4) (k0_pay2 (F := Ideal) ((dats m 0 c).before 0 t d0) ((dats m 0 c).before 1 t d1) ((dats m 0 c).before 3 t d3) ((dats m 0 c).before 2 t d2) xs))
      have hcut : (cfg0.win 6).cut (grid0.coords t) (k0_pay3 (F := Ideal) ((dats m 0 c).before 5 t d5) ((dats m 0 c).before 4 t d4) (k0_pay2 (F := Ideal) ((dats m 0 c).before 0 t d0) ((dats m 0 c).before 1 t d1) ((dats m 0 c).before 3 t d3) ((dats m 0 c).before 2 t d2) xs))
          = (cfg0.win 6).cut (grid0.coords t) ((dats m 0 c).after 6 t) := by
        rw [after6, Window.cut_fill, before5 m c t d5]
        funext y
        rw [View.read_apply]
        exact out_ok m c t h7 d4 _ hstep y
      rw [(cfg0.win 6).fill_congr_cut _ hcut]
      unfold owns; iexists _; isplitr
      swap; · iexact H6
      ipureintro; exact valLastOut c _ _ _ _ _ _ _ _ _ _ _ _ _ _ _ _ _ _ _ _ _ _ _ _ _ _ _
    · rw [leaves6_idle m c t h7, PhiS_castSucc m c t, PhiS_pos m c _ _ hz]
      iintro ⟨⟨⟨%xs, %hxs, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid c (grid0.coords t) (ms0 t) (hs0 t) (ms1 t) (hs1 t) (ms2 t) (hs2 t) (ms3 t) (hs3 t) (ms4 t) (hs4 t) (ms5 t) (hs5 t) (ms6 t) (hs6 t) accM (Memref.isWhole_whole _)
        (fun h => h0 ((hcondFirst t).mp h)) (fun h => h7 ((hcondLast t).mp h)) ((dats m 0 c).before 0 t d0) ((dats m 0 c).before 1 t d1) ((dats m 0 c).before 2 t d2) ((dats m 0 c).before 3 t d3) ((dats m 0 c).before 4 t d4) ((dats m 0 c).before 5 t d5) xs).property ((dats m 0 c).before 6 t d6) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%fs, HS⟩⟩
      isplitl [HS Hg]
      · isplitl [HS]
        · iexists (k0_pay2 (F := Ideal) ((dats m 0 c).before 0 t d0) ((dats m 0 c).before 1 t d1) ((dats m 0 c).before 3 t d3) ((dats m 0 c).before 2 t d2) xs)
          isplitr
          · ipureintro
            rw [before0 m c t d0]
            exact acc_step m c t d1 d2 d3 _ (acc_prev m c t h0 xs hxs)
          unfold owns; iexists _; isplitr
          swap; · iexact HS
          ipureintro; exact valMid c _ _ _ _ _ _ _ _ _ _ _ _ _ _ _ _ _ _ _ _ _ _ _ _ _ _ _
        iexact Hg
      isplitl [Ho]; · iexact Ho
      isplitl [H0]; · rw [← before0 m c t d0]; iexact H0
      isplitl [H1]
      · iexists ((dats m 0 c).before 1 t d1)
        rw [← Pipeline.ClipIn.before_eq_fill (dats m 0 c) 1 rfl (fun _ => rfl) (after1 m c) t d1]; iexact H1
      isplitl [H2]
      · iexists ((dats m 0 c).before 2 t d2)
        rw [← Pipeline.ClipIn.before_eq_fill (dats m 0 c) 2 rfl (fun _ => rfl) (after2 m c) t d2]; iexact H2
      isplitl [H3]
      · iexists ((dats m 0 c).before 3 t d3)
        rw [← Pipeline.ClipIn.before_eq_fill (dats m 0 c) 3 rfl (fun _ => rfl) (after3 m c) t d3]; iexact H3
      isplitl [H4]
      · iexists ((dats m 0 c).before 4 t d4)
        rw [← Pipeline.ClipIn.before_eq_fill (dats m 0 c) 4 rfl (fun _ => rfl) (after4 m c) t d4]; iexact H4
      isplitl [H5]; · rw [← before5 m c t d5]; iexact H5
      iexists _; iexact H6

/-- The library's body obligation, at every point. -/
theorem body_obligation (c : Dev nD) :
    BodyObligationLoose (dats m 0 c) (defs₀ (F := Ideal)) Variants.none () Set.univ := fun t => by
  rw [bigSep_W0, bigSep_W0]
  exact sound_body m c t

end Cert.KernelIdeal.Hand

end
-- ==== Proof.HostSide.lean ====
/-
  The arrays around the one region, read index by index.

  Before the region the program reshapes five of its arguments: x from [4, 2048, 4096] to [8192, 4096], the scales and the
  zero points from [11008] to a column [11008, 1], the integer biases from [11008] to a row [1, 11008], the one bias scale
  from [1] to [1, 1]; the integer weights go in as they are. After the region it reshapes the result from [8192, 11008] to
  [4, 2048, 11008]. A row-major reshape keeps the flat position of every element, so row r of the matrix of x is the
  row (r / 2048, r % 2048) of x, a column's or a row's entry o is the vector's entry o, and the result at (b, s, o) is the
  region's matrix at row b · 2048 + s, column o.
-/
import proofs.«153634_j74594991997150_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Hand

open Cert.KernelIdeal Cert.KernelIdeal.Gen Idealize.ShloMosaic Idealize.ShloMosaic.TcCoe Idealize.SL.Sem
  Idealize.ShloMosaic.StableHlo Idealize.ShloMosaic.ValueIdx

variable (m : (ℓ : Loc nD τ sig) → Buf (Elt Ideal) ℓ)

/-! ## A reshape read at an index -/

/-- [4, 2048, 4096] reshaped to [8192, 4096]: row r is the row (r / 2048, r % 2048). -/
theorem reshape_x_apply {α : Type} (x : S4x2048x4096.Idx → α) (h : S4x2048x4096.ShapeCasts S8192x4096) (r : Fin 8192) (k : Fin 4096) :
    shapeCast S8192x4096 x h (ix2 r k)
      = x (ix3 (⟨r.val / 2048, by omega⟩ : Fin 4) (⟨r.val % 2048, by omega⟩ : Fin 2048) k) :=
  shapeCast_apply x h _ _ (by
    rw [Shape.rowMajor_val_three, Shape.rowMajor_val_two]
    show (r.val / 2048 * 2048 + r.val % 2048) * 4096 + k.val = r.val * 4096 + k.val
    omega)

/-- [11008] reshaped to a column [11008, 1]: entry (o, 0) is entry o. -/
theorem reshape_col_apply {α : Type} (x : S11008.Idx → α) (h : S11008.ShapeCasts S11008x1) (o : Fin 11008) :
    shapeCast S11008x1 x h (ix2 o (0 : Fin 1)) = x (ix1 o) :=
  shapeCast_apply x h _ _ (by
    rw [Shape.rowMajor_val_one, Shape.rowMajor_val_two]
    show o.val = o.val * 1 + 0
    omega)

/-- [8192, 11008] reshaped to [4, 2048, 11008]: the entry (b, s, o) is the matrix's at row b · 2048 + s. -/
theorem reshape_out_apply {α : Type} (y : S8192x11008.Idx → α) (h : S8192x11008.ShapeCasts S4x2048x11008)
    (b : Fin 4) (s : Fin 2048) (o : Fin 11008) :
    shapeCast S4x2048x11008 y h (ix3 b s o) = y (ix2 (⟨b.val * 2048 + s.val, by omega⟩ : Fin 8192) o) :=
  shapeCast_apply y h _ _ (by
    rw [Shape.rowMajor_val_three, Shape.rowMajor_val_two]
    rfl)

/-! ## The arrays as the region finds them -/

variable (c : Dev nD)

theorem V_main_v0 : (V m c main_v0 : S8192x4096.Idx → EReal)
    = shapeCast S8192x4096 (m ((c : Thread nD τ).loc main_arg0) : S4x2048x4096.Idx → EReal) shapeCasts_S4x2048x4096_S8192x4096 := by
  show StableHlo.after hostOps0 (fun b => m (c, b)) (Proc.devRef .tc main_v0) = _
  after_results
  rfl

/-- The matrix of x the region reads: row r is x's row (r / 2048, r % 2048). -/
theorem entry_x (r : Fin 8192) (k : Fin 4096) :
    (V m c main_v0 : S8192x4096.Idx → EReal) (ix2 r k)
      = (m ((c : Thread nD τ).loc main_arg0) : S4x2048x4096.Idx → EReal)
          (ix3 (⟨r.val / 2048, by omega⟩ : Fin 4) (⟨r.val % 2048, by omega⟩ : Fin 2048) k) := by
  rw [V_main_v0]
  exact reshape_x_apply _ _ r k

theorem V_main_v1 : (V m c main_v1 : S11008x1.Idx → EReal)
    = shapeCast S11008x1 (m ((c : Thread nD τ).loc main_arg2) : S11008.Idx → EReal) shapeCasts_S11008_S11008x1 := by
  show StableHlo.after hostOps0 (fun b => m (c, b)) (Proc.devRef .tc main_v1) = _
  after_results
  rfl

theorem V_main_v2 : (V m c main_v2 : S11008x1.Idx → BitVec 32)
    = shapeCast S11008x1 (m ((c : Thread nD τ).loc main_arg3) : S11008.Idx → BitVec 32) shapeCasts_S11008_S11008x1 := by
  show StableHlo.after hostOps0 (fun b => m (c, b)) (Proc.devRef .tc main_v2) = _
  after_results
  rfl

theorem V_main_v3 : (V m c main_v3 : S1x11008.Idx → BitVec 32)
    = shapeCast S1x11008 (m ((c : Thread nD τ).loc main_arg4) : S11008.Idx → BitVec 32) shapeCasts_S11008_S1x11008 := by
  show StableHlo.after hostOps0 (fun b => m (c, b)) (Proc.devRef .tc main_v3) = _
  after_results
  rfl

theorem V_main_v4 : (V m c main_v4 : S1x1.Idx → EReal)
    = shapeCast S1x1 (m ((c : Thread nD τ).loc main_arg5) : S1.Idx → EReal) shapeCasts_S1_S1x1 := by
  show StableHlo.after hostOps0 (fun b => m (c, b)) (Proc.devRef .tc main_v4) = _
  after_results
  rfl

/-- The column of scales the region reads: entry (o, 0) is the scale of row o. -/
theorem entry_ws (o : Fin 11008) :
    (V m c main_v1 : S11008x1.Idx → EReal) (ix2 o (0 : Fin 1))
      = (m ((c : Thread nD τ).loc main_arg2) : S11008.Idx → EReal) (ix1 o) := by
  rw [V_main_v1]
  exact reshape_col_apply _ _ o

/-- The column of zero points the region reads: entry (o, 0) is the zero point of row o. -/
theorem entry_zp (o : Fin 11008) :
    (V m c main_v2 : S11008x1.Idx → BitVec 32) (ix2 o (0 : Fin 1))
      = (m ((c : Thread nD τ).loc main_arg3) : S11008.Idx → BitVec 32) (ix1 o) := by
  rw [V_main_v2]
  exact reshape_col_apply _ _ o

/-- The row of integer biases the region reads: entry (0, o) is the bias of column o. -/
theorem entry_bq (o : Fin 11008) :
    (V m c main_v3 : S1x11008.Idx → BitVec 32) (ix2 (0 : Fin 1) o)
      = (m ((c : Thread nD τ).loc main_arg4) : S11008.Idx → BitVec 32) (ix1 o) := by
  rw [V_main_v3]
  exact shapeCast_a_1a_apply _ _ 0 o

/-- The one bias scale the region reads. -/
theorem entry_bs :
    (V m c main_v4 : S1x1.Idx → EReal) (ix2 (0 : Fin 1) (0 : Fin 1))
      = (m ((c : Thread nD τ).loc main_arg5) : S1.Idx → EReal) (ix1 (0 : Fin 1)) := by
  rw [V_main_v4]
  exact shapeCast_a_1a_apply _ _ 0 0

/-- The integer weights go into the region as launched. -/
theorem entry_q : V m c main_arg1 = m ((c : Thread nD τ).loc main_arg1) := V_main_arg1 m c

/-! ## The result after the region -/

/-- The result array after the last reshape is the region's matrix reshaped, whatever the region's proof data. -/
theorem tail_v6_eq (dats : (p : Fin 1) → (c : Dev nD) → Pipeline.Dat τ (Elt Ideal) Unit ℕ (UR sig nD τ) ℕ (cfgs p) c) :
    (Pipeline.afterTail₀ cfgs dats 0 (V0 m) [hostOps1] c main_v6 : S4x2048x11008.Idx → EReal)
      = shapeCast S4x2048x11008 ((dats 0 c).arrAt 6 cfg0.N : S8192x11008.Idx → EReal) shapeCasts_S8192x11008_S4x2048x11008 := by
  unfold Pipeline.afterTail₀
  show StableHlo.after hostOps1 _ (Proc.devRef .tc main_v6) = _
  after_results
  have e : Pipeline.withArrays (cfgs 0).spec c (V0 m c) (fun w => (dats 0 c).arrAt w (cfgs 0).N) (Proc.devRef .tc main_v5)
      = (dats 0 c).arrAt 6 cfg0.N := Pipeline.withArrays_arr spec0 launch0.win.arr_inj c _ _ 6
  rw [e]
  rfl

/-- The result at (b, s, o) is the region's matrix at row b · 2048 + s, column o. -/
theorem tail_v6 (dats : (p : Fin 1) → (c : Dev nD) → Pipeline.Dat τ (Elt Ideal) Unit ℕ (UR sig nD τ) ℕ (cfgs p) c)
    (b : Fin 4) (s : Fin 2048) (o : Fin 11008) :
    (Pipeline.afterTail₀ cfgs dats 0 (V0 m) [hostOps1] c main_v6 : S4x2048x11008.Idx → EReal) (ix3 b s o)
      = ((dats 0 c).arrAt 6 cfg0.N : S8192x11008.Idx → EReal) (ix2 (⟨b.val * 2048 + s.val, by omega⟩ : Fin 8192) o) := by
  rw [tail_v6_eq]
  exact reshape_out_apply _ _ b s o

end Cert.KernelIdeal.Hand

end
-- ==== Proof.IdealRun.lean ====
/-
  The idealized kernel's run: it terminates, faults nowhere, leaves its arguments unchanged, and its result is the
  specification of its arguments.

  The points k = 7 write the output array's blocks, which cover it, so the array [8192, 11008] ends at
  G6[r, o] = (the eight block sums of T r o) + bias. Eight blocks of 512 are the whole contraction of 4096, and
  the arrays the region finds are row-major reshapes of the arguments (x[b, s, k] sits at row b·2048 + s, a scale
  at (o, 0), a bias at (0, o)); the last host line reshapes [8192, 11008] back to [4, 2048, 11008]. So the result at
  (b, s, o) is (Σ_k x[b, s, k] · (ws[o] · (q[o, k] − zp[o]))) + bs[0] · bq[o].
-/
import proofs.«153634_j74594991997150_1_alg».proof.Proof.Gen.KernelIdeal.Launch
import proofs.«153634_j74594991997150_1_alg».proof.Proof.Gen.KernelIdeal.Skeleton
import proofs.«153634_j74594991997150_1_alg».proof.Proof.Gen.KernelIdeal.Points
import proofs.«153634_j74594991997150_1_alg».proof.Proof.Gen.KernelIdeal.Frame
import proofs.«153634_j74594991997150_1_alg».proof.Proof.IdealBody
import proofs.«153634_j74594991997150_1_alg».proof.Proof.HostSide
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.QLinear

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-! ## The launch -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 704 := N_0; omega), PhiA_eq]
  iintro ⟨⟨%X, -, HS⟩, Hg⟩
  isplitl [HS]
  · iexists _; iexact HS
  iexact Hg

set_option backward.isDefEq.respectTransparency.types false in
/-- From any memory with zero counters every weakly fair execution terminates without a fault, every array of the
    pipeline at what the proof data computes and every other unscoped buffer as the last host line leaves it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-! ## The output array and the result -/

/-- The write-backs cover the output array: it ends at G6. -/
theorem final6 (c : Dev nD) : (dats m 0 c).arrAt 6 cfg0.N = G6 m c :=
  (dats m 0 c).arrAt_eq_of_cover 6 (G6 m c) (fun t _ => by
    show (cfg0.win 6).cut (grid0.coords t) ((dats m 0 c).after 6 t) = _
    rw [after6, Window.cut_fill]) (cover6 c)

/-- A term over the arrays the region finds is the specification's term over the arguments. -/
theorem T_eq (c : Dev nD) (b : Fin 4) (s : Fin 2048) (o : Fin 11008) (k : Fin 4096) :
    T m c (b.val * 2048 + s.val) o.val k.val
      = term (m ((c.tc : Thread nD τ).loc main_arg0)) (m ((c.tc : Thread nD τ).loc main_arg1)) (m ((c.tc : Thread nD τ).loc main_arg2))
          (m ((c.tc : Thread nD τ).loc main_arg3)) b s o k := by
  have hb := b.isLt
  have hs := s.isLt
  have hr : b.val * 2048 + s.val < 8192 := by omega
  unfold T; rw [dif_pos ⟨hr, o.isLt, k.isLt⟩]
  unfold term wdeq
  have ex := entry_x m c ⟨b.val * 2048 + s.val, hr⟩ k
  have e1 : (⟨(⟨b.val * 2048 + s.val, hr⟩ : Fin 8192).val / 2048, by omega⟩ : Fin 4) = b := Fin.ext (by show (b.val * 2048 + s.val) / 2048 = b.val; omega)
  have e2 : (⟨(⟨b.val * 2048 + s.val, hr⟩ : Fin 8192).val % 2048, by omega⟩ : Fin 2048) = s := Fin.ext (by show (b.val * 2048 + s.val) % 2048 = s.val; omega)
  rw [e1, e2] at ex
  have eq := congrFun (entry_q m c) (ix2 o k)
  show aX m c (ix2 ⟨b.val * 2048 + s.val, hr⟩ k) * (aW m c (ix2 o (0 : Fin 1)) * (ofInt (aQ m c (ix2 o k)) - ofInt (aZ m c (ix2 o (0 : Fin 1))))) = _
  rw [show aX m c (ix2 ⟨b.val * 2048 + s.val, hr⟩ k) = _ from ex, show aW m c (ix2 o (0 : Fin 1)) = _ from entry_ws m c o,
    show aZ m c (ix2 o (0 : Fin 1)) = _ from entry_zp m c o, show aQ m c (ix2 o k) = _ from eq]

theorem bias_eq (c : Dev nD) (o : Fin 11008) :
    biasAt m c o.val = bias (m ((c.tc : Thread nD τ).loc main_arg4)) (m ((c.tc : Thread nD τ).loc main_arg5)) o := by
  unfold biasAt; rw [dif_pos o.isLt]
  unfold bias
  show aS m c (ix2 (0 : Fin 1) (0 : Fin 1)) * ofInt (aB m c (ix2 (0 : Fin 1) o)) = _
  rw [show aS m c (ix2 (0 : Fin 1) (0 : Fin 1)) = _ from entry_bs m c, show aB m c (ix2 (0 : Fin 1) o) = _ from entry_bq m c o]

/-- The result after the last host line is the specification of the arguments. -/
theorem result_eq (c : Dev nD) :
    (Pipeline.afterTail₀ cfgs (dats m) 0 (V0 m) [hostOps1] c main_v6 : S4x2048x11008.Idx → EReal)
      = G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  funext (j : S4x2048x11008.Idx)
  obtain ⟨b, s, o, rfl⟩ : ∃ (b : Fin 4) (s : Fin 2048) (o : Fin 11008), j = ix3 b s o := ⟨j 0, j 1, j 2, eq_ix3 j⟩
  refine (tail_v6 m c (dats m) b s o).trans ?_
  refine (congrFun (final6 m c) _).trans ?_
  unfold G6 G
  show blockAcc (T m c (b.val * 2048 + s.val) o.val) 8 + biasAt m c o.val
    = (∑ k : Fin 4096, term (m ((c.tc : Thread nD τ).loc main_arg0)) (m ((c.tc : Thread nD τ).loc main_arg1))
        (m ((c.tc : Thread nD τ).loc main_arg2)) (m ((c.tc : Thread nD τ).loc main_arg3)) b s o k)
      + bias (m ((c.tc : Thread nD τ).loc main_arg4)) (m ((c.tc : Thread nD τ).loc main_arg5)) o
  rw [blockAcc_eight, bias_eq m c o]
  congr 1
  exact Finset.sum_congr rfl fun k _ => T_eq m c b s o k

/-- The kernel's run with its result named: the specification of the arguments, the arguments unchanged. -/
theorem run_value : θ_run defs (onTc (τ := τ) (main (F := Ideal))) ⟨m, fun _ => 0, ρ⟩ (fun r => ∀ c : Dev nD,
      r.2.mem ((c.tc : Thread nD τ).loc main_v6)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

/-- The frame: the run with the result dropped. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_value m ρ)

end Cert.KernelIdeal.Hand

end
-- ==== Proof.RefSpec.lean ====
/-
  What the reference computes, index by index, is the specification.

  The reference turns the integer weights into reals, subtracts each row's zero point, multiplies by the row's
  scale, contracts the result with x along the axis of length 4096, and adds the bias scale times the integer
  bias, copied along the two leading axes. Read at an index (b, s, o), every copy along an axis reads its operand
  at the coordinates it keeps, so the result there is

      (Σ_{k < 4096} x[b, s, k] · (ws[o] · (q[o, k] − zp[o]))) + bs[0] · bq[o],

  which is the specification term for term: no law of arithmetic is used, only that the composed positions at
  which the operands are read are (b, s, k), (o, k), (o) and (0).
-/
import proofs.«153634_j74594991997150_1_alg».proof.Defs
import proofs.«153634_j74594991997150_1_alg».proof.Proof.Spec
import proofs.«153634_j74594991997150_1_alg».proof.Proof.Gen.ReferenceIdeal.Read
import proofs.«153634_j74594991997150_1_alg».proof.Proof.Gen.Pre_finite_inputs

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The positions at which the operands are read -/

/-- The contraction reads x at (b, s, k). -/
theorem lidx_eq (i : S4x2048x11008.Idx) (k : Fin 4096) : lidx_main_v8 i k = ix3 (i 0) (i 1) k :=
  funext fun a => Fin.ext (by match a with | ⟨0, _⟩ => rfl | ⟨1, _⟩ => rfl | ⟨2, _⟩ => rfl)

/-- The contraction reads the dequantized weight at (o, k). -/
theorem ridx_eq (i : S4x2048x11008.Idx) (k : Fin 4096) : ridx_main_v8 i k = ix2 (i 2) k :=
  funext fun a => Fin.ext (by match a with | ⟨0, _⟩ => rfl | ⟨1, _⟩ => rfl)

/-- The scale, copied along the columns, is read at (o). -/
theorem scale_idx_eq (j : S11008x4096.Idx) : idx_main_v0 (idx_main_v6 j) = ix1 (j 0) :=
  funext fun a => Fin.ext (by match a with | ⟨0, _⟩ => rfl)

/-- The zero point, copied along the columns, is read at (o). -/
theorem zp_idx_eq (j : S11008x4096.Idx) : idx_main_v3 (idx_main_v4 j) = ix1 (j 0) :=
  funext fun a => Fin.ext (by match a with | ⟨0, _⟩ => rfl)

/-- The bias, copied along the two leading axes, is read at (o). -/
theorem bias_idx_eq (i : S4x2048x11008.Idx) : idx_main_v12 (idx_main_v13 i) = ix1 (i 2) :=
  funext fun a => Fin.ext (by match a with | ⟨0, _⟩ => rfl)

/-- The one bias scale is read at (0). -/
theorem bs_idx_eq (j : S11008.Idx) : idx_main_v10 j = ix1 0 :=
  funext fun a => Fin.ext (by match a with | ⟨0, _⟩ => rfl)

/-! ## The reference's result is the specification -/

/-- One term of the reference's contraction is the specification's term. -/
theorem term_eq (x0 : (⟨S4x2048x4096, .f32⟩ : BufTy).Contents (Elt Ideal)) (x1 : (⟨S11008x4096, .i32⟩ : BufTy).Contents (Elt Ideal))
    (x2 : (⟨S11008, .f32⟩ : BufTy).Contents (Elt Ideal)) (x3 : (⟨S11008, .i32⟩ : BufTy).Contents (Elt Ideal))
    (i : S4x2048x11008.Idx) (k : Fin 4096) :
    x0 (lidx_main_v8 i k) * (val_main_v7 (F := Ideal) x1 x2 x3) (ridx_main_v8 i k)
      = Cert.QLinear.term x0 x1 x2 x3 (i 0) (i 1) (i 2) k := by
  rw [val_main_v7_apply, val_main_v6_apply, val_main_v0_apply, val_main_v5_apply, val_main_v1_apply, val_main_v4_apply,
    val_main_v3_apply, val_main_v2_apply, scale_idx_eq, zp_idx_eq, lidx_eq, ridx_eq]
  rfl

/-- The reference's bias term is the specification's. -/
theorem bias_eq (x4 : (⟨S11008, .i32⟩ : BufTy).Contents (Elt Ideal)) (x5 : (⟨S1, .f32⟩ : BufTy).Contents (Elt Ideal))
    (i : S4x2048x11008.Idx) :
    val_main_v13 (F := Ideal) x4 x5 i = Cert.QLinear.bias x4 x5 (i 2) := by
  rw [val_main_v13_apply, val_main_v12_apply, val_main_v11_apply, val_main_v10_apply, val_main_v9_apply,
    bs_idx_eq (idx_main_v12 (idx_main_v13 i)), bias_idx_eq]
  rfl

/-- The reference's result, as a function of its six arguments, is the specification. -/
theorem ref_is_spec (x0 : (⟨S4x2048x4096, .f32⟩ : BufTy).Contents (Elt Ideal)) (x1 : (⟨S11008x4096, .i32⟩ : BufTy).Contents (Elt Ideal))
    (x2 : (⟨S11008, .f32⟩ : BufTy).Contents (Elt Ideal)) (x3 x4 : (⟨S11008, .i32⟩ : BufTy).Contents (Elt Ideal))
    (x5 : (⟨S1, .f32⟩ : BufTy).Contents (Elt Ideal)) :
    Cert.ReferenceIdeal.Read.val_main_v14 (F := Ideal) x0 x1 x2 x3 x4 x5 = Cert.QLinear.G x0 x1 x2 x3 x4 x5 := by
  funext i
  rw [val_main_v14_apply, val_main_v8_apply, bias_eq, Ideal.addf_def]
  unfold Cert.QLinear.G
  exact congrArg (· + Cert.QLinear.bias x4 x5 (i 2)) (Finset.sum_congr rfl fun k _ => term_eq x0 x1 x2 x3 i k)

/-! ## The reference's run, restated through the specification -/

/-- From any memory with zero counters, every weakly fair execution of the reference terminates with its result
    the specification of the six arguments' launch contents, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14) = Cert.QLinear.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((val_main_v14_eq _ _ _ _ _ _).trans (ref_is_spec _ _ _ _ _ _)), (h c).2⟩)
    (Cert.ReferenceIdeal.Value.run (F := Ideal) m ρ)

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The certificate of the quantized linear layer: the Pallas kernel against its jnp reference.

  Both programs compute, at (b, s, o),  (Σ_{k < 4096} x[b, s, k] · (ws[o] · (q[o, k] − zp[o]))) + bs[0] · bq[o].
  The kernel contracts in eight blocks of 512 accumulated in a scratch buffer from zero and adds the bias at the
  last block; the reference contracts at once. Over the extended reals (a change of float format is the identity)
  the two differ only in how one sum is grouped, and addition there is commutative and associative, so the results
  are equal for all inputs: the precondition is never opened. The five claims:
  * the word-level kernel terminates, faults nowhere and leaves its arguments unchanged: its body run at each grid
    point with nothing said of the buffers' contents (Proof/KBodyRun.lean, Proof/KFrame.lean);
  * the same of the idealized kernel, from its run with every value named (Proof/BodyRun.lean … Proof/IdealRun.lean);
  * the same of the reference, from its run (Proof/RefSpec.lean);
  * the idealization rewrote no operation, so there is nothing to preserve;
  * both idealized programs end at the specification of their arguments (Proof/Spec.lean), which agree.
-/
import proofs.«153634_j74594991997150_1_alg».proof.Defs
import proofs.«153634_j74594991997150_1_alg».proof.Proof.Gen.Kernel
import proofs.«153634_j74594991997150_1_alg».proof.Proof.Gen.KernelIdeal
import proofs.«153634_j74594991997150_1_alg».proof.Proof.Gen.ReferenceIdeal
import proofs.«153634_j74594991997150_1_alg».proof.Proof.Gen.Pre_finite_inputs
import proofs.«153634_j74594991997150_1_alg».proof.Proof.KFrame
import proofs.«153634_j74594991997150_1_alg».proof.Proof.IdealRun
import proofs.«153634_j74594991997150_1_alg».proof.Proof.RefSpec

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame m ρ

theorem frame_ri : Cert.frame_ReferenceIdeal := Cert.ReferenceIdeal.RefValue.frame_ri

theorem preserves : Cert.preserves_Kernel_KernelIdeal := trivial

/-- Run from memories that agree on the arguments, both idealized programs end at the specification of those
    arguments. -/
theorem algebraic : Cert.algebraic_KernelIdeal_ReferenceIdeal := by
  intro m ρ m' ρ' _ hagree
  refine ⟨fun c => Cert.QLinear.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Hand.run_value m ρ, ?_⟩
  refine (θ_run Cert.ReferenceIdeal.defs _ _).mono (fun _ h c => ⟨(h c).1.trans ?_, (h c).2⟩)
    (Cert.ReferenceIdeal.RefValue.run_spec m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
